-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v108_0)) (v1 : (c : Dev Cert.KernelIdeal.nD) → Buf (Elt Ideal) ((c.tc : Thread Cert.KernelIdeal.nD Cert.KernelIdeal.τ).loc Cert.KernelIdeal.main_v108_1)) (v2 : (c : Dev Cert.KernelIdeal.nD) → Buf (Elt Ideal) ((c.tc : Thread Cert.KernelIdeal.nD Cert.KernelIdeal.τ).loc Cert.KernelIdeal.main_v108_2)) (v3 : (c : Dev Cert.KernelIdeal.nD) → Buf (Elt Ideal) ((c.tc : Thread Cert.KernelIdeal.nD Cert.KernelIdeal.τ).loc Cert.KernelIdeal.main_v108_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108_0) = v0 c
          ∧ r.2.mem ((c.tc : Thread Cert.KernelIdeal.nD Cert.KernelIdeal.τ).loc Cert.KernelIdeal.main_v108_1) = v1 c
          ∧ r.2.mem ((c.tc : Thread Cert.KernelIdeal.nD Cert.KernelIdeal.τ).loc Cert.KernelIdeal.main_v108_2) = v2 c
          ∧ r.2.mem ((c.tc : Thread Cert.KernelIdeal.nD Cert.KernelIdeal.τ).loc Cert.KernelIdeal.main_v108_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg13 : FVec F S128x128 .f32) (main_arg14 : FVec F S128 .f32) (main_arg15 : FVec F S128x128 .f32) (main_arg16 : FVec F S128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_v33

def fn {F : FTy → Type} [FloatOps F] (main_arg0 : FVec F S100000x128 .f32) (main_arg1 : IVec S600000 32) (main_arg2 : IVec S600000 32) (main_arg3 : IVec S600000 32) (main_arg4 : IVec S600000 32) (main_arg5 : IVec S600000 32) (main_arg6 : IVec S600000 32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg7
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg8
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg9
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg10 main_arg11 main_arg12 main_arg13 main_arg14 main_arg15 main_arg16 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩
abbrev S100000x3 : Shape := ⟨2, ![100000, 3]⟩
abbrev S1x128 : Shape := ⟨2, ![1, 128]⟩
abbrev S2000x128 : Shape := ⟨2, ![2000, 128]⟩
abbrev S2000x3 : Shape := ⟨2, ![2000, 3]⟩
abbrev S2000x1 : Shape := ⟨2, ![2000, 1]⟩

abbrev nBuf : Space → Nat
  | .hbm => 159
  | .vmem => 26
  | .smem => 0
  | _ => 0

abbrev hbmTy0_0 (i : Nat) : BufTy := match i % 128 with
  | 0 => ⟨S100000x128, .f32⟩
  | 1 => ⟨S600000, .i32⟩
  | 2 => ⟨S600000, .i32⟩
  | 3 => ⟨S600000, .i32⟩
  | 4 => ⟨S600000, .i32⟩
  | 5 => ⟨S600000, .i32⟩
  | 6 => ⟨S600000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S_, .f32⟩
  | 18 => ⟨S600000, .f32⟩
  | 19 => ⟨S_, .f32⟩
  | 20 => ⟨S100000, .f32⟩
  | 21 => ⟨S600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S600000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S100000, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000x1, .f32⟩
  | 54 => ⟨S600000x128, .f32⟩
  | 55 => ⟨S600000x128, .f32⟩
  | 56 => ⟨S_, .f32⟩
  | 57 => ⟨S100000x128, .f32⟩
  | 58 => ⟨S600000x1, .i32⟩
  | 59 => ⟨S100000x128, .f32⟩
  | 60 => ⟨S_, .f32⟩
  | 61 => ⟨S600000, .f32⟩
  | 62 => ⟨S_, .f32⟩
  | 63 => ⟨S100000, .f32⟩
  | 64 => ⟨S600000x1, .i32⟩
  | 65 => ⟨S100000, .f32⟩
  | 66 => ⟨S_, .f32⟩
  | 67 => ⟨S100000, .f32⟩
  | 68 => ⟨S100000, .f32⟩
  | 69 => ⟨S_, .f32⟩
  | 70 => ⟨S100000, .f32⟩
  | 71 => ⟨S600000x1, .i32⟩
  | 72 => ⟨S100000, .f32⟩
  | 73 => ⟨S_, .f32⟩
  | 74 => ⟨S100000, .f32⟩
  | 75 => ⟨S100000, .f32⟩
  | 76 => ⟨S100000, .f32⟩
  | 77 => ⟨S100000, .f32⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000, .f32⟩
  | 96 => ⟨S600000x1, .f32⟩
  | 97 => ⟨S600000x128, .f32⟩
  | 98 => ⟨S600000x128, .f32⟩
  | 99 => ⟨S_, .f32⟩
  | 100 => ⟨S100000x128, .f32⟩
  | 101 => ⟨S600000x1, .i32⟩
  | 102 => ⟨S100000x128, .f32⟩
  | 103 => ⟨S_, .f32⟩
  | 104 => ⟨S600000, .f32⟩
  | 105 => ⟨S_, .f32⟩
  | 106 => ⟨S100000, .f32⟩
  | 107 => ⟨S600000x1, .i32⟩
  | 108 => ⟨S100000, .f32⟩
  | 109 => ⟨S_, .f32⟩
  | 110 => ⟨S100000, .f32⟩
  | 111 => ⟨S100000, .f32⟩
  | 112 => ⟨S_, .f32⟩
  | 113 => ⟨S100000, .f32⟩
  | 114 => ⟨S600000x1, .i32⟩
  | 115 => ⟨S100000, .f32⟩
  | 116 => ⟨S_, .f32⟩
  | 117 => ⟨S100000, .f32⟩
  | 118 => ⟨S100000, .f32⟩
  | 119 => ⟨S100000, .f32⟩
  | 120 => ⟨S100000, .f32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S100000x128, .f32⟩

abbrev hbmTy0_1 (i : Nat) : BufTy := match i % 128 with
  | 0 => ⟨S600000x1, .i32⟩
  | 1 => ⟨S600000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000, .f32⟩
  | 11 => ⟨S600000x1, .f32⟩
  | 12 => ⟨S600000x128, .f32⟩
  | 13 => ⟨S600000x128, .f32⟩
  | 14 => ⟨S_, .f32⟩
  | 15 => ⟨S100000x128, .f32⟩
  | 16 => ⟨S600000x1, .i32⟩
  | 17 => ⟨S100000x128, .f32⟩
  | 18 => ⟨S100000x1, .f32⟩
  | 19 => ⟨S100000x1, .f32⟩
  | 20 => ⟨S100000x1, .f32⟩
  | 21 => ⟨S100000x3, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S100000x128, .f32⟩
  | 28 => ⟨S100000x128, .f32⟩
  | 29 => ⟨S100000x128, .f32⟩
  | 30 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x3, .f32⟩
  | .local _ .vmem, ⟨7, _⟩ => ⟨S2000x3, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_4 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_5 : Ref sig .tc := ⟨.hbm, 44, rfl⟩
abbrev main_v20 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_8 : Ref sig .tc := ⟨.hbm, 60, rfl⟩
abbrev main_v33 : Ref sig .tc := ⟨.hbm, 61, rfl⟩
abbrev main_cst_9 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_10 : Ref sig .tc := ⟨.hbm, 66, rfl⟩
abbrev main_v37 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_13 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_15 : Ref sig .tc := ⟨.hbm, 87, rfl⟩
abbrev main_v53 : Ref sig .tc := ⟨.hbm, 88, rfl⟩
abbrev main_v54 : Ref sig .tc := ⟨.hbm, 89, rfl⟩
abbrev main_c_16 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_17 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_18 : Ref sig .tc := ⟨.hbm, 103, rfl⟩
abbrev main_v66 : Ref sig .tc := ⟨.hbm, 104, rfl⟩
abbrev main_cst_19 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_20 : Ref sig .tc := ⟨.hbm, 109, rfl⟩
abbrev main_v70 : Ref sig .tc := ⟨.hbm, 110, rfl⟩
abbrev main_v71 : Ref sig .tc := ⟨.hbm, 111, rfl⟩
abbrev main_cst_21 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_22 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_c_23 : Ref sig .tc := ⟨.hbm, 121, rfl⟩
abbrev main_v79 : Ref sig .tc := ⟨.hbm, 122, rfl⟩
abbrev main_v80 : Ref sig .tc := ⟨.hbm, 123, rfl⟩
abbrev main_c_24 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_25 : Ref sig .tc := ⟨.hbm, 130, rfl⟩
abbrev main_v86 : Ref sig .tc := ⟨.hbm, 131, rfl⟩
abbrev main_v87 : Ref sig .tc := ⟨.hbm, 132, rfl⟩
abbrev main_c_26 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_27 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108_0 : Ref sig .tc := ⟨.hbm, 155, rfl⟩
abbrev main_v108_1 : Ref sig .tc := ⟨.hbm, 156, rfl⟩
abbrev main_v108_2 : Ref sig .tc := ⟨.hbm, 157, rfl⟩
abbrev main_v108_3 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2000x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  concatenates_S100000x1_S100000x1_S100000x1_S100000x3_d1 : Shape.Concatenates [S100000x1, S100000x1, S100000x1] S100000x3 1
  shapeCasts_S128_S1x128 : S128.ShapeCasts S1x128
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  slices_S2000x3_o0_0_S2000x1 : S2000x3.Slices ![0, 0] S2000x1
  slices_S2000x3_o0_1_S2000x1 : S2000x3.Slices ![0, 1] S2000x1
  slices_S2000x3_o0_2_S2000x1 : S2000x3.Slices ![0, 2] S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  gather_S100000_S600000x1_S600000_n_0_n_n_0_1_1_wf : GatherDims.WF S100000 S600000x1 S600000 [] [0] [] [0] [] 1 ![1]
  scatter_S100000x128_S600000x1_S600000x128_1_0_0_1_wf : ScatterDims.WF S100000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S100000x3.size a
  hwx0_3 : ∀ i : grid0.Coords, EltTy.bits .f32 = 32 ∨ (Rect.block (s := S100000x3) S2000x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S100000x128.size a
  hwx0_14 : ∀ i : grid0.Coords, EltTy.bits .f32 = 32 ∨ (Rect.block (s := S100000x128) S2000x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S100000x128.size a
  hwx0_15 : ∀ i : grid0.Coords, EltTy.bits .f32 = 32 ∨ (Rect.block (s := S100000x128) S2000x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x128.size a ≤ S100000x128.size a
  hwx0_16 : ∀ i : grid0.Coords, EltTy.bits .f32 = 32 ∨ (Rect.block (s := S100000x128) S2000x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x128.size a ≤ S100000x128.size a
  hwx0_17 : ∀ i : grid0.Coords, EltTy.bits .f32 = 32 ∨ (Rect.block (s := S100000x128) S2000x128.size (cc0_transform_17 i) (hinb0_17 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v32) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v65) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v98) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v102) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v103) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v104) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v105) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v106) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg15) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v107) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v108_0) S2000x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v108_1) S2000x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v108_2) S2000x128.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v108_3) S2000x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S600000, .i32⟩
  | 2 => ⟨S600000, .i32⟩
  | 3 => ⟨S600000, .i32⟩
  | 4 => ⟨S600000, .i32⟩
  | 5 => ⟨S600000, .i32⟩
  | 6 => ⟨S600000, .i32⟩
  | 7 => ⟨S128x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S_, .f32⟩
  | 18 => ⟨S600000, .f32⟩
  | 19 => ⟨S_, .f32⟩
  | 20 => ⟨S100000, .f32⟩
  | 21 => ⟨S600000x1, .i32⟩
  | 22 => ⟨S100000, .f32⟩
  | 23 => ⟨S_, .f32⟩
  | 24 => ⟨S100000, .f32⟩
  | 25 => ⟨S100000, .f32⟩
  | 26 => ⟨S_, .f32⟩
  | 27 => ⟨S100000, .f32⟩
  | 28 => ⟨S600000x1, .i32⟩
  | 29 => ⟨S100000, .f32⟩
  | 30 => ⟨S_, .f32⟩
  | 31 => ⟨S100000, .f32⟩
  | 32 => ⟨S100000, .f32⟩
  | 33 => ⟨S100000, .f32⟩
  | 34 => ⟨S100000x1, .f32⟩
  | 35 => ⟨S100000x128, .f32⟩
  | 36 => ⟨S100000x128, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S_, .f32⟩
  | 47 => ⟨S100000x128, .f32⟩
  | 48 => ⟨S600000x1, .i32⟩
  | 49 => ⟨S100000x128, .f32⟩
  | 50 => ⟨S100000, .f32⟩
  | 51 => ⟨S100000x1, .f32⟩
  | 52 => ⟨S100000x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S_, .f32⟩
  | 62 => ⟨S600000, .f32⟩
  | 63 => ⟨S_, .f32⟩
  | 64 => ⟨S100000, .f32⟩
  | 65 => ⟨S600000x1, .i32⟩
  | 66 => ⟨S100000, .f32⟩
  | 67 => ⟨S_, .f32⟩
  | 68 => ⟨S100000, .f32⟩
  | 69 => ⟨S100000, .f32⟩
  | 70 => ⟨S_, .f32⟩
  | 71 => ⟨S100000, .f32⟩
  | 72 => ⟨S600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S_, .i32⟩
  | 82 => ⟨S600000, .i32⟩
  | 83 => ⟨S600000, .i1⟩
  | 84 => ⟨S_, .i32⟩
  | 85 => ⟨S600000, .i32⟩
  | 86 => ⟨S600000, .i32⟩
  | 87 => ⟨S600000, .i32⟩
  | 88 => ⟨S600000x1, .i32⟩
  | 89 => ⟨S600000x128, .f32⟩
  | 90 => ⟨S_, .f32⟩
  | 91 => ⟨S100000x128, .f32⟩
  | 92 => ⟨S600000x1, .i32⟩
  | 93 => ⟨S100000x128, .f32⟩
  | 94 => ⟨S100000, .f32⟩
  | 95 => ⟨S100000x1, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S_, .f32⟩
  | 103 => ⟨S100000x128, .f32⟩
  | 104 => ⟨S100000x128, .f32⟩
  | 105 => ⟨S_, .f32⟩
  | 106 => ⟨S600000, .f32⟩
  | 107 => ⟨S_, .f32⟩
  | 108 => ⟨S100000, .f32⟩
  | 109 => ⟨S600000x1, .i32⟩
  | 110 => ⟨S100000, .f32⟩
  | 111 => ⟨S_, .f32⟩
  | 112 => ⟨S100000, .f32⟩
  | 113 => ⟨S100000, .f32⟩
  | 114 => ⟨S_, .f32⟩
  | 115 => ⟨S100000, .f32⟩
  | 116 => ⟨S600000x1, .i32⟩
  | 117 => ⟨S100000, .f32⟩
  | 118 => ⟨S_, .f32⟩
  | 119 => ⟨S100000, .f32⟩
  | 120 => ⟨S100000, .f32⟩
  | 121 => ⟨S100000, .f32⟩
  | 122 => ⟨S100000x1, .f32⟩
  | 123 => ⟨S100000x128, .f32⟩
  | 124 => ⟨S100000x128, .f32⟩
  | 125 => ⟨S_, .i32⟩
  | 126 => ⟨S600000, .i32⟩
  | 127 => ⟨S600000, .i1⟩
  | _ => ⟨S100000x128, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .f32⟩
  | 6 => ⟨S_, .f32⟩
  | 7 => ⟨S100000x128, .f32⟩
  | 8 => ⟨S600000x1, .i32⟩
  | 9 => ⟨S100000x128, .f32⟩
  | 10 => ⟨S100000, .f32⟩
  | 11 => ⟨S100000x1, .f32⟩
  | 12 => ⟨S100000x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S1x128, .f32⟩
  | 32 => ⟨S100000x128, .f32⟩
  | 33 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_cst_2 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_3 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call0_cst : Ref sig .tc := ⟨.hbm, 58, rfl⟩
abbrev main_call0_v0 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_cst_7 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_10 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_11 : Ref sig .tc := ⟨.hbm, 81, rfl⟩
abbrev main_v49 : Ref sig .tc := ⟨.hbm, 82, rfl⟩
abbrev main_v50 : Ref sig .tc := ⟨.hbm, 83, rfl⟩
abbrev main_c_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_call1_cst : Ref sig .tc := ⟨.hbm, 102, rfl⟩
abbrev main_call1_v0 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_cst_15 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_16 : Ref sig .tc := ⟨.hbm, 111, rfl⟩
abbrev main_v72 : Ref sig .tc := ⟨.hbm, 112, rfl⟩
abbrev main_v73 : Ref sig .tc := ⟨.hbm, 113, rfl⟩
abbrev main_cst_17 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_19 : Ref sig .tc := ⟨.hbm, 125, rfl⟩
abbrev main_v83 : Ref sig .tc := ⟨.hbm, 126, rfl⟩
abbrev main_v84 : Ref sig .tc := ⟨.hbm, 127, rfl⟩
abbrev main_c_20 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_21 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_call2_cst : Ref sig .tc := ⟨.hbm, 146, rfl⟩
abbrev main_call2_v0 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_call3_cst : Ref sig .tc := ⟨.hbm, 155, rfl⟩
abbrev main_call3_v0 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.Host.lean ====
/-
  The host prefix of `Kernel`'s @main, for the frame: the program is 138 host operations (three gather /
  scatter-add aggregations, their degree normalisations, one concatenate of the three in-degree scales and five
  reshapes of the biases) followed by ONE region.  `V` is what a core's buffers hold when the region is entered:
  the fold of those operations over the launch memory.  No operation writes an argument array, so the region finds
  each argument as launched (`V_main_argK`); each operation's written buffer is its own result buffer, the
  concatenate's included.
-/
import proofs.«153691_j36636071035262_2_alg».proof.Proof.Gen.Kernel.Launch
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: the launch memory after the host operations. -/
abbrev V (c : Dev nD) (b : Ref sig .tc) : Buf (Elt F) ((c : Thread nD τ).loc b) :=
  StableHlo.after hostOps0 (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.Kernel.Hand

end
-- ==== Proof.K.Body.lean ====
/-
  The kernel body of `Kernel` as a Hoare triple.  At a grid point the body is handed eighteen whole staging
  buffers: three 2000×128 blocks of aggregated features, the 2000×3 block of in-degree scales, five 128×128 weight
  matrices and five 1×128 bias rows (inputs), and four 2000×128 output blocks.  It loads every input whole, and
  stores each output block whole, once: the three hidden blocks `max(a_i · W_i + b_i, 0)` with `a_i` the aggregated
  block scaled row by row, and the reconstruction `max((h_0 + h_1 + h_2) · W_r1 + b_r1, 0) · W_r2 + b_r2`.  (It also loads
  each output buffer before overwriting it; the loaded value is not used.)  So after the body each output buffer
  holds the one stored payload, whatever it held before, and the inputs are as they were.
-/
import proofs.«153691_j36636071035262_2_alg».proof.Proof.Gen.Kernel.Launch
import proofs.«153691_j36636071035262_2_alg».proof.Proof.Gen.Kernel.Skeleton
import proofs.«153691_j36636071035262_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rA : Rect S2000x128 := Rect.unit (s := S2000x128) ![0, 0] S2000x128.size inb_S2000x128_S2000x128_0_0
abbrev rD : Rect S2000x3 := Rect.unit (s := S2000x3) ![0, 0] S2000x3.size inb_S2000x3_S2000x3_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-! ## What the body leaves in each output buffer, from the input blocks -/

/-- The reconstruction block. -/
def out14 (x0 : Vec F S2000x128 .f32) (x1 : Vec F S2000x128 .f32) (x2 : Vec F S2000x128 .f32) (x3 : Vec F S2000x3 .f32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) : Vec F S2000x128 .f32 :=
  View.canon [⟨rA, k0_pay11 (k0_pay2 (View.ld x3 rD) (View.ld x1 rA)) (k0_pay3 (View.ld x3 rD) (View.ld x2 rA)) (k0_pay4 (View.ld x6 rW)) (k0_pay5 (View.ld x8 rW)) (k0_pay6 (View.ld x7 rB)) (k0_pay7 (View.ld x9 rB)) (k0_pay8 (View.ld x3 rD) (View.ld x0 rA) (View.ld x4 rW) (View.ld x5 rB)) (View.ld x10 rW) (View.ld x11 rB) (View.ld x12 rW) (View.ld x13 rB)⟩]
/-- The first hidden block. -/
def out15 (x0 : Vec F S2000x128 .f32) (x3 : Vec F S2000x3 .f32) (x4 : Vec F S128x128 .f32) (x5 : Vec F S1x128 .f32) : Vec F S2000x128 .f32 :=
  View.canon [⟨rA, k0_pay8 (View.ld x3 rD) (View.ld x0 rA) (View.ld x4 rW) (View.ld x5 rB)⟩]
/-- The second hidden block. -/
def out16 (x1 : Vec F S2000x128 .f32) (x3 : Vec F S2000x3 .f32) (x6 : Vec F S128x128 .f32) (x7 : Vec F S1x128 .f32) : Vec F S2000x128 .f32 :=
  View.canon [⟨rA, k0_pay9 (k0_pay2 (View.ld x3 rD) (View.ld x1 rA)) (k0_pay4 (View.ld x6 rW)) (k0_pay6 (View.ld x7 rB))⟩]
/-- The third hidden block. -/
def out17 (x2 : Vec F S2000x128 .f32) (x3 : Vec F S2000x3 .f32) (x8 : Vec F S128x128 .f32) (x9 : Vec F S1x128 .f32) : Vec F S2000x128 .f32 :=
  View.canon [⟨rA, k0_pay10 (k0_pay3 (View.ld x3 rD) (View.ld x2 rA)) (k0_pay5 (View.ld x8 rW)) (k0_pay7 (View.ld x9 rB))⟩]

/-- One whole-buffer store covers the buffer. -/
theorem coverA (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-! ## The body's triple -/

set_option maxHeartbeats 4000000 in
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x3 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S2000x128 .f32) (harg15 : arg15.IsWhole) (arg16 : Memref sig .tc .vmem S2000x128 .f32) (harg16 : arg16.IsWhole) (arg17 : Memref sig .tc .vmem S2000x128 .f32) (harg17 : arg17.IsWhole) (arg18 : Memref sig .tc .vmem S2000x128 .f32) (harg18 : arg18.IsWhole)
    (x0 : Vec F S2000x128 .f32) (x1 : Vec F S2000x128 .f32) (x2 : Vec F S2000x128 .f32) (x3 : Vec F S2000x3 .f32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out14 x0 x1 x2 x3 x4 x5 x6 x7 x8 x9 x10 x11 x12 x13)
            ∗ owns (c : Thread nD τ) arg16 fullShare (out15 x0 x3 x4 x5)
            ∗ owns (c : Thread nD τ) arg17 fullShare (out16 x1 x3 x6 x7)
            ∗ owns (c : Thread nD τ) arg18 fullShare (out17 x2 x3 x8 x9)) -∗ K ⟨⟩))
      ⊢ wp frame (wpE (defs₀ (F := F)) Variants.none c none) E (cc0__recon_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__recon_kernel_eq_skeleton]; unfold cc0__recon_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (coverA _)
  isplitl [H15]
  · iexists _; isplitr
    swap; · iexact H15
    ipureintro
    exact View.read_writes_eq_canon _ _ _ (coverA _)
  isplitl [H16]
  · iexists _; isplitr
    swap; · iexact H16
    ipureintro
    exact View.read_writes_eq_canon _ _ _ (coverA _)
  iexists _; isplitr
  swap; · iexact H17
  ipureintro
  exact View.read_writes_eq_canon _ _ _ (coverA _)

end Cert.Kernel.Hand

end
-- ==== Proof.K.Frame.lean ====
/-
  The frame of `Kernel`: every weakly fair execution of @main terminates without a fault and leaves the seventeen
  argument arrays as launched.  The region's proof data: each array is what the host prefix left (`V`); after the
  body at grid point `t` an input's staging buffer still holds that window's block at `t` (rows 2000·t … 2000·t+1999
  of the aggregated features and of the in-degree scales; the weights and biases whole, fetched once and resident),
  and an output's holds the stored payload of those blocks.  The argument arrays that are windows (the five weight
  matrices) are inputs, never written back; the other arguments are no window's array and the region leaves them alone.
-/
import proofs.«153691_j36636071035262_2_alg».proof.Proof.K.Host
import proofs.«153691_j36636071035262_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 4).trans (((dats 0 c).arrAt_in 4 rfl _).trans ((hA c 4).trans (V_main_arg7 m c))),
      ((h c).2 main_arg8 (Pipeline.mem_restRefs_of main_arg8 (by decide) (by decide))).trans (V_main_arg8 m c),
      ((h c).1 6).trans (((dats 0 c).arrAt_in 6 rfl _).trans ((hA c 6).trans (V_main_arg9 m c))),
      ((h c).2 main_arg10 (Pipeline.mem_restRefs_of main_arg10 (by decide) (by decide))).trans (V_main_arg10 m c),
      ((h c).1 8).trans (((dats 0 c).arrAt_in 8 rfl _).trans ((hA c 8).trans (V_main_arg11 m c))),
      ((h c).2 main_arg12 (Pipeline.mem_restRefs_of main_arg12 (by decide) (by decide))).trans (V_main_arg12 m c),
      ((h c).1 10).trans (((dats 0 c).arrAt_in 10 rfl _).trans ((hA c 10).trans (V_main_arg13 m c))),
      ((h c).2 main_arg14 (Pipeline.mem_restRefs_of main_arg14 (by decide) (by decide))).trans (V_main_arg14 m c),
      ((h c).1 12).trans (((dats 0 c).arrAt_in 12 rfl _).trans ((hA c 12).trans (V_main_arg15 m c))),
      ((h c).2 main_arg16 (Pipeline.mem_restRefs_of main_arg16 (by decide) (by decide))).trans (V_main_arg16 m c)⟩) h

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out15 (iblk m c 0 t) (iblk m c 3 t) (iblk m c 4 t) (iblk m c 5 t)
    | ⟨16, _⟩ => out16 (iblk m c 1 t) (iblk m c 3 t) (iblk m c 6 t) (iblk m c 7 t)
    | ⟨17, _⟩ => out17 (iblk m c 2 t) (iblk m c 3 t) (iblk m c 8 t) (iblk m c 9 t)
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after15 (c : Dev nD) (t : Fin cfg0.N) : (dats m 0 c).after 15 t = out15 (iblk m c 0 t) (iblk m c 3 t) (iblk m c 4 t) (iblk m c 5 t) := by dsimp only [dats]
theorem after16 (c : Dev nD) (t : Fin cfg0.N) : (dats m 0 c).after 16 t = out16 (iblk m c 1 t) (iblk m c 3 t) (iblk m c 6 t) (iblk m c 7 t) := by dsimp only [dats]
theorem after17 (c : Dev nD) (t : Fin cfg0.N) : (dats m 0 c).after 17 t = out17 (iblk m c 2 t) (iblk m c 3 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.Hand

end
-- ==== Proof.KI.Host.lean ====
/-
  The host prefix of `KernelIdeal`'s @main, for the frame: the program is 138 host operations (three gather /
  scatter-add aggregations, their degree normalisations, one concatenate of the three in-degree scales and five
  reshapes of the biases) followed by ONE region.  `V` is what a core's buffers hold when the region is entered:
  the fold of those operations over the launch memory.  No operation writes an argument array, so the region finds
  each argument as launched (`V_main_argK`); each operation's written buffer is its own result buffer, the
  concatenate's included.
-/
import proofs.«153691_j36636071035262_2_alg».proof.Proof.Gen.KernelIdeal.Launch
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: the launch memory after the host operations. -/
abbrev V (c : Dev nD) (b : Ref sig .tc) : Buf (Elt F) ((c : Thread nD τ).loc b) :=
  StableHlo.after hostOps0 (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

set_option maxHeartbeats 4000000 in
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

end Cert.KernelIdeal.Hand

end
-- ==== Proof.KI.Body.lean ====
/-
  The kernel body of `KernelIdeal` as a Hoare triple.  At a grid point the body is handed eighteen whole staging
  buffers: three 2000×128 blocks of aggregated features, the 2000×3 block of in-degree scales, five 128×128 weight
  matrices and five 1×128 bias rows (inputs), and four 2000×128 output blocks.  It loads every input whole, and
  stores each output block whole, once: the three hidden blocks `max(a_i · W_i + b_i, 0)` with `a_i` the aggregated
  block scaled row by row, and the reconstruction `max((h_0 + h_1 + h_2) · W_r1 + b_r1, 0) · W_r2 + b_r2`.  (It also loads
  each output buffer before overwriting it; the loaded value is not used.)  So after the body each output buffer
  holds the one stored payload, whatever it held before, and the inputs are as they were.
-/
import proofs.«153691_j36636071035262_2_alg».proof.Proof.Gen.KernelIdeal.Launch
import proofs.«153691_j36636071035262_2_alg».proof.Proof.Gen.KernelIdeal.Skeleton
import proofs.«153691_j36636071035262_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rA : Rect S2000x128 := Rect.unit (s := S2000x128) ![0, 0] S2000x128.size inb_S2000x128_S2000x128_0_0
abbrev rD : Rect S2000x3 := Rect.unit (s := S2000x3) ![0, 0] S2000x3.size inb_S2000x3_S2000x3_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-! ## What the body leaves in each output buffer, from the input blocks -/

/-- The reconstruction block. -/
def out14 (x0 : Vec F S2000x128 .f32) (x1 : Vec F S2000x128 .f32) (x2 : Vec F S2000x128 .f32) (x3 : Vec F S2000x3 .f32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) : Vec F S2000x128 .f32 :=
  View.canon [⟨rA, k0_pay11 (k0_pay2 (View.ld x3 rD) (View.ld x1 rA)) (k0_pay3 (View.ld x3 rD) (View.ld x2 rA)) (k0_pay4 (View.ld x6 rW)) (k0_pay5 (View.ld x8 rW)) (k0_pay6 (View.ld x7 rB)) (k0_pay7 (View.ld x9 rB)) (k0_pay8 (View.ld x3 rD) (View.ld x0 rA) (View.ld x4 rW) (View.ld x5 rB)) (View.ld x10 rW) (View.ld x11 rB) (View.ld x12 rW) (View.ld x13 rB)⟩]
/-- The first hidden block. -/
def out15 (x0 : Vec F S2000x128 .f32) (x3 : Vec F S2000x3 .f32) (x4 : Vec F S128x128 .f32) (x5 : Vec F S1x128 .f32) : Vec F S2000x128 .f32 :=
  View.canon [⟨rA, k0_pay8 (View.ld x3 rD) (View.ld x0 rA) (View.ld x4 rW) (View.ld x5 rB)⟩]
/-- The second hidden block. -/
def out16 (x1 : Vec F S2000x128 .f32) (x3 : Vec F S2000x3 .f32) (x6 : Vec F S128x128 .f32) (x7 : Vec F S1x128 .f32) : Vec F S2000x128 .f32 :=
  View.canon [⟨rA, k0_pay9 (k0_pay2 (View.ld x3 rD) (View.ld x1 rA)) (k0_pay4 (View.ld x6 rW)) (k0_pay6 (View.ld x7 rB))⟩]
/-- The third hidden block. -/
def out17 (x2 : Vec F S2000x128 .f32) (x3 : Vec F S2000x3 .f32) (x8 : Vec F S128x128 .f32) (x9 : Vec F S1x128 .f32) : Vec F S2000x128 .f32 :=
  View.canon [⟨rA, k0_pay10 (k0_pay3 (View.ld x3 rD) (View.ld x2 rA)) (k0_pay5 (View.ld x8 rW)) (k0_pay7 (View.ld x9 rB))⟩]

/-- One whole-buffer store covers the buffer. -/
theorem coverA (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

/-! ## The body's triple -/

set_option maxHeartbeats 4000000 in
theorem sound_kernel (c : Dev nD) (E : Set ℕ) (i : grid0.Coords) (arg1 : Memref sig .tc .vmem S2000x128 .f32) (harg1 : arg1.IsWhole) (arg2 : Memref sig .tc .vmem S2000x128 .f32) (harg2 : arg2.IsWhole) (arg3 : Memref sig .tc .vmem S2000x128 .f32) (harg3 : arg3.IsWhole) (arg4 : Memref sig .tc .vmem S2000x3 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S1x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S2000x128 .f32) (harg15 : arg15.IsWhole) (arg16 : Memref sig .tc .vmem S2000x128 .f32) (harg16 : arg16.IsWhole) (arg17 : Memref sig .tc .vmem S2000x128 .f32) (harg17 : arg17.IsWhole) (arg18 : Memref sig .tc .vmem S2000x128 .f32) (harg18 : arg18.IsWhole)
    (x0 : Vec F S2000x128 .f32) (x1 : Vec F S2000x128 .f32) (x2 : Vec F S2000x128 .f32) (x3 : Vec F S2000x3 .f32) (x4 : Vec F S128x128 .f32) (x5 : Vec F S1x128 .f32) (x6 : Vec F S128x128 .f32) (x7 : Vec F S1x128 .f32) (x8 : Vec F S128x128 .f32) (x9 : Vec F S1x128 .f32) (x10 : Vec F S128x128 .f32) (x11 : Vec F S1x128 .f32) (x12 : Vec F S128x128 .f32) (x13 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (out14 x0 x1 x2 x3 x4 x5 x6 x7 x8 x9 x10 x11 x12 x13)
            ∗ owns (c : Thread nD τ) arg16 fullShare (out15 x0 x3 x4 x5)
            ∗ owns (c : Thread nD τ) arg17 fullShare (out16 x1 x3 x6 x7)
            ∗ owns (c : Thread nD τ) arg18 fullShare (out17 x2 x3 x8 x9)) -∗ K ⟨⟩))
      ⊢ wp frame (wpE (defs₀ (F := F)) Variants.none c none) E (cc0__recon_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__recon_kernel_eq_skeleton]; unfold cc0__recon_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    exact View.read_writes_eq_canon _ _ _ (coverA _)
  isplitl [H15]
  · iexists _; isplitr
    swap; · iexact H15
    ipureintro
    exact View.read_writes_eq_canon _ _ _ (coverA _)
  isplitl [H16]
  · iexists _; isplitr
    swap; · iexact H16
    ipureintro
    exact View.read_writes_eq_canon _ _ _ (coverA _)
  iexists _; isplitr
  swap; · iexact H17
  ipureintro
  exact View.read_writes_eq_canon _ _ _ (coverA _)

end Cert.KernelIdeal.Hand

end
-- ==== Proof.KI.Frame.lean ====
/-
  The frame of `KernelIdeal`: every weakly fair execution of @main terminates without a fault and leaves the seventeen
  argument arrays as launched.  The region's proof data: each array is what the host prefix left (`V`); after the
  body at grid point `t` an input's staging buffer still holds that window's block at `t` (rows 2000·t … 2000·t+1999
  of the aggregated features and of the in-degree scales; the weights and biases whole, fetched once and resident),
  and an output's holds the stored payload of those blocks.  The argument arrays that are windows (the five weight
  matrices) are inputs, never written back; the other arguments are no window's array and the region leaves them alone.
-/
import proofs.«153691_j36636071035262_2_alg».proof.Proof.KI.Host
import proofs.«153691_j36636071035262_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not. -/
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point, fetched there or not. -/
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point, fetched there or not. -/
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point, fetched there or not. -/
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 4).trans (((dats 0 c).arrAt_in 4 rfl _).trans ((hA c 4).trans (V_main_arg7 m c))),
      ((h c).2 main_arg8 (Pipeline.mem_restRefs_of main_arg8 (by decide) (by decide))).trans (V_main_arg8 m c),
      ((h c).1 6).trans (((dats 0 c).arrAt_in 6 rfl _).trans ((hA c 6).trans (V_main_arg9 m c))),
      ((h c).2 main_arg10 (Pipeline.mem_restRefs_of main_arg10 (by decide) (by decide))).trans (V_main_arg10 m c),
      ((h c).1 8).trans (((dats 0 c).arrAt_in 8 rfl _).trans ((hA c 8).trans (V_main_arg11 m c))),
      ((h c).2 main_arg12 (Pipeline.mem_restRefs_of main_arg12 (by decide) (by decide))).trans (V_main_arg12 m c),
      ((h c).1 10).trans (((dats 0 c).arrAt_in 10 rfl _).trans ((hA c 10).trans (V_main_arg13 m c))),
      ((h c).2 main_arg14 (Pipeline.mem_restRefs_of main_arg14 (by decide) (by decide))).trans (V_main_arg14 m c),
      ((h c).1 12).trans (((dats 0 c).arrAt_in 12 rfl _).trans ((hA c 12).trans (V_main_arg15 m c))),
      ((h c).2 main_arg16 (Pipeline.mem_restRefs_of main_arg16 (by decide) (by decide))).trans (V_main_arg16 m c)⟩) h

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out15 (iblk m c 0 t) (iblk m c 3 t) (iblk m c 4 t) (iblk m c 5 t)
    | ⟨16, _⟩ => out16 (iblk m c 1 t) (iblk m c 3 t) (iblk m c 6 t) (iblk m c 7 t)
    | ⟨17, _⟩ => out17 (iblk m c 2 t) (iblk m c 3 t) (iblk m c 8 t) (iblk m c 9 t)
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = out14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after15 (c : Dev nD) (t : Fin cfg0.N) : (dats m 0 c).after 15 t = out15 (iblk m c 0 t) (iblk m c 3 t) (iblk m c 4 t) (iblk m c 5 t) := by dsimp only [dats]
theorem after16 (c : Dev nD) (t : Fin cfg0.N) : (dats m 0 c).after 16 t = out16 (iblk m c 1 t) (iblk m c 3 t) (iblk m c 6 t) (iblk m c 7 t) := by dsimp only [dats]
theorem after17 (c : Dev nD) (t : Fin cfg0.N) : (dats m 0 c).after 17 t = out17 (iblk m c 2 t) (iblk m c 3 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.Hand

end
-- ==== Proof.Spec.lean ====
/-
  The mathematics both programs compute, over the extended reals, row by row.

  A DENSE LAYER of an n×128 array X with a 128×128 matrix W and a bias row b is, at (p, q),
  Σ_k X[p,k]·W[k,q] + b[0,q].  A HIDDEN layer of one edge type scales row p of the aggregated features by that row's
  in-degree scale (column i of an n×3 array), applies a dense layer and clamps below at zero.  The RECONSTRUCTION
  adds the three hidden arrays, applies a dense layer clamped at zero and a second dense layer.
  Every one of these reads, at row p, only row p of the n-row operands: so a block of rows of the result is the
  same function of the corresponding blocks of rows (`dense_rows`, `hidden_rows`, `recon_rows`).
-/
import Idealize.ShloMosaic.PureOps.Ideal
import Idealize.ShloMosaic.Lib.ValueIdx

noncomputable section

namespace Cert.Spec

open Idealize.ShloMosaic Idealize.ShloMosaic.ValueIdx
open scoped BigOperators

/-- An a×b array of extended reals. -/
abbrev A2 (a b : Nat) : Type := FVec Ideal (⟨2, ![a, b]⟩ : Shape) .f32

/-- The floor of the clamp: the f32 zero word. -/
abbrev zero32 : Ideal .f32 := Ideal.ofBits .f32 0x00000000#32

/-- Row `p` of the left operand against column `q` of the right one. -/
def dotRow {n : Nat} (X : A2 n 128) (W : A2 128 128) (p : Fin n) (q : Fin 128) : Ideal .f32 :=
  ∑ k : Fin 128, X (ix2 p k) * W (ix2 k q)

/-- The dense layer X·W + b. -/
def dense {n : Nat} (X : A2 n 128) (W : A2 128 128) (b : A2 1 128) : A2 n 128 :=
  fun j => dotRow X W ⟨(j 0).val, idx2_lt0 j⟩ ⟨(j 1).val, idx2_lt1 j⟩ + b (ix2 (0 : Fin 1) ⟨(j 1).val, idx2_lt1 j⟩)

theorem dense_ix2 {n : Nat} (X : A2 n 128) (W : A2 128 128) (b : A2 1 128) (p : Fin n) (q : Fin 128) :
    dense X W b (ix2 p q) = (∑ k : Fin 128, X (ix2 p k) * W (ix2 k q)) + b (ix2 (0 : Fin 1) q) := rfl

/-- Row `p` of `agg` scaled by column `i` of row `p` of `deg`. -/
def scaled {n : Nat} (i : Fin 3) (agg : A2 n 128) (deg : FVec Ideal (⟨2, ![n, 3]⟩ : Shape) .f32) : A2 n 128 :=
  fun j => agg j * deg (ix2 ⟨(j 0).val, idx2_lt0 j⟩ i)

theorem scaled_ix2 {n : Nat} (i : Fin 3) (agg : A2 n 128) (deg : FVec Ideal (⟨2, ![n, 3]⟩ : Shape) .f32) (p : Fin n) (q : Fin 128) :
    scaled i agg deg (ix2 p q) = agg (ix2 p q) * deg (ix2 p i) := rfl

/-- Clamped below at zero. -/
def relu {n : Nat} (X : A2 n 128) : A2 n 128 := fun j => max (X j) zero32

/-- One edge type's hidden layer. -/
def hidden {n : Nat} (i : Fin 3) (agg : A2 n 128) (deg : FVec Ideal (⟨2, ![n, 3]⟩ : Shape) .f32) (W : A2 128 128) (b : A2 1 128) : A2 n 128 :=
  relu (dense (scaled i agg deg) W b)

/-- The sum of the three hidden arrays. -/
def add3 {n : Nat} (h0 h1 h2 : A2 n 128) : A2 n 128 := fun j => h0 j + h1 j + h2 j

/-- The two-layer reconstruction of the summed hidden arrays. -/
def recon {n : Nat} (h0 h1 h2 : A2 n 128) (W1 : A2 128 128) (b1 : A2 1 128) (W2 : A2 128 128) (b2 : A2 1 128) : A2 n 128 :=
  dense (relu (dense (add3 h0 h1 h2) W1 b1)) W2 b2

/-! ## Row locality -/

theorem dense_rows {n n' : Nat} (X : A2 n 128) (X' : A2 n' 128) (W : A2 128 128) (b : A2 1 128) (p : Fin n) (p' : Fin n')
    (h : ∀ k : Fin 128, X (ix2 p k) = X' (ix2 p' k)) (q : Fin 128) : dense X W b (ix2 p q) = dense X' W b (ix2 p' q) := by
  rw [dense_ix2, dense_ix2]
  exact congrArg (· + b (ix2 (0 : Fin 1) q)) (Finset.sum_congr rfl fun k _ => by rw [h k])

theorem hidden_rows {n n' : Nat} (i : Fin 3) (agg : A2 n 128) (agg' : A2 n' 128) (deg : FVec Ideal (⟨2, ![n, 3]⟩ : Shape) .f32)
    (deg' : FVec Ideal (⟨2, ![n', 3]⟩ : Shape) .f32) (W : A2 128 128) (b : A2 1 128) (p : Fin n) (p' : Fin n')
    (ha : ∀ k : Fin 128, agg (ix2 p k) = agg' (ix2 p' k)) (hd : deg (ix2 p i) = deg' (ix2 p' i)) (q : Fin 128) :
    hidden i agg deg W b (ix2 p q) = hidden i agg' deg' W b (ix2 p' q) := by
  show max (dense (scaled i agg deg) W b (ix2 p q)) zero32 = max (dense (scaled i agg' deg') W b (ix2 p' q)) zero32
  rw [dense_rows (scaled i agg deg) (scaled i agg' deg') W b p p' (fun k => by rw [scaled_ix2, scaled_ix2, ha k, hd]) q]

theorem recon_rows {n n' : Nat} (h0 h1 h2 : A2 n 128) (h0' h1' h2' : A2 n' 128) (W1 : A2 128 128) (b1 : A2 1 128) (W2 : A2 128 128) (b2 : A2 1 128)
    (p : Fin n) (p' : Fin n') (e0 : ∀ k : Fin 128, h0 (ix2 p k) = h0' (ix2 p' k)) (e1 : ∀ k : Fin 128, h1 (ix2 p k) = h1' (ix2 p' k))
    (e2 : ∀ k : Fin 128, h2 (ix2 p k) = h2' (ix2 p' k)) (q : Fin 128) :
    recon h0 h1 h2 W1 b1 W2 b2 (ix2 p q) = recon h0' h1' h2' W1 b1 W2 b2 (ix2 p' q) := by
  unfold recon
  refine dense_rows _ _ W2 b2 p p' (fun k => ?_) q
  show max (dense (add3 h0 h1 h2) W1 b1 (ix2 p k)) zero32 = max (dense (add3 h0' h1' h2') W1 b1 (ix2 p' k)) zero32
  rw [dense_rows (add3 h0 h1 h2) (add3 h0' h1' h2') W1 b1 p p' (fun k' => by
    show h0 (ix2 p k') + h1 (ix2 p k') + h2 (ix2 p k') = h0' (ix2 p' k') + h1' (ix2 p' k') + h2' (ix2 p' k')
    rw [e0 k', e1 k', e2 k']) k]

end Cert.Spec

end
-- ==== Proof.KI.Pay.lean ====
/-
  The kernel body's four stored payloads, at the extended reals, are the hidden layers and the reconstruction of
  the blocks it loaded.  A printed dense layer is a matrix product into a zero accumulator of the operands (rounded to bf16 on the way in: the
  identity on extended reals) plus the bias row broadcast over the rows; read at (p, q) it is Σ_k X[p,k]·W[k,q] + b[0,q].
  The printed row scaling multiplies the block by column i of the 2000×3 scale block broadcast over the 128 lanes.
-/
import proofs.«153691_j36636071035262_2_alg».proof.Proof.Gen.KernelIdeal.Skeleton
import proofs.«153691_j36636071035262_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.Spec
open Idealize.ShloMosaic Idealize.ShloMosaic.ValueIdx
open scoped BigOperators

/-! ## The matrix product read at an index -/

theorem lhs0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs1 (i : S2000x128.Idx) (q : dot_S2000x128_S128x128_S2000x128_1_0_0_1_n_n.contr.Idx) : (dot_S2000x128_S128x128_S2000x128_1_0_0_1_n_n.lhsIdx i q 1).val = (q ⟨0, by decide⟩).val :=
  dot_S2000x128_S128x128_S2000x128_1_0_0_1_n_n.lhsIdx_val_of_single rfl i q
theorem rhs0 (i : S2000x128.Idx) (q : dot_S2000x128_S128x128_S2000x128_1_0_0_1_n_n.contr.Idx) : (dot_S2000x128_S128x128_S2000x128_1_0_0_1_n_n.rhsIdx i q 0).val = (q ⟨0, by decide⟩).val :=
  dot_S2000x128_S128x128_S2000x128_1_0_0_1_n_n.rhsIdx_val_of_single rfl i q
theorem rhs1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into the zero accumulator at (p, q): row p against column q. -/
theorem mm_apply (X : FVec Ideal S2000x128 .bf16) (W : FVec Ideal S128x128 .bf16) (p : Fin 2000) (q : Fin 128) :
    matmul dot_S2000x128_S128x128_S2000x128_1_0_0_1_n_n none X W (constant (F := Ideal) S2000x128 .f32 0x00000000#32) (ix2 p q)
      = ∑ k : Fin 128, X (ix2 p k) * W (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs0 _ _
    | ⟨1, _⟩ => exact (lhs1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-! ## The printed layer and the printed row scaling -/

/-- A dense layer as the body prints it. -/
def layerK (X : FVec Ideal S2000x128 .f32) (W : Vec Ideal S128x128 .f32) (b : Vec Ideal S1x128 .f32) : FVec Ideal S2000x128 .f32 :=
  addf (matmul dot_S2000x128_S128x128_S2000x128_1_0_0_1_n_n none (truncf .bf16 X bitsLt_bf16_f32) (truncf .bf16 W bitsLt_bf16_f32) (constant S2000x128 .f32 0x00000000#32))
    (broadcastTo S2000x128 (shapeCast S1x128 b shapeCasts_S1x128_S1x128) broadcasts_S1x128_S2000x128)

theorem layerK_eq (X : FVec Ideal S2000x128 .f32) (W : Vec Ideal S128x128 .f32) (b : Vec Ideal S1x128 .f32) :
    layerK X W b = dense (n := 2000) X W b := by
  funext j
  obtain ⟨p, q, rfl⟩ : ∃ (p : Fin 2000) (q : Fin 128), j = ix2 p q := ⟨j 0, j 1, eq_ix2 j⟩
  rw [dense_ix2]
  unfold layerK
  rw [shapeCast_self]
  show matmul dot_S2000x128_S128x128_S2000x128_1_0_0_1_n_n none (truncf .bf16 X bitsLt_bf16_f32) (truncf .bf16 W bitsLt_bf16_f32) (constant S2000x128 .f32 0x00000000#32) (ix2 p q)
      + broadcastTo S2000x128 b broadcasts_S1x128_S2000x128 (ix2 p q) = _
  rw [mm_apply, broadcastTo_1b_ab_apply]
  rfl

/-- A block scaled row by row by the column at offset `off 1` of the scale block, as the body prints it. -/
def scaleK (off : Fin 2 → Nat) (hs : S2000x3.Slices off S2000x1) (A : Vec Ideal S2000x128 .f32) (D : Vec Ideal S2000x3 .f32) : FVec Ideal S2000x128 .f32 :=
  mulf (shapeCast S2000x128 A shapeCasts_S2000x128_S2000x128)
    (broadcastTo S2000x128 (extractStridedSlice S2000x1 off (shapeCast S2000x3 D shapeCasts_S2000x3_S2000x3) hs) broadcasts_S2000x1_S2000x128)

/-- A 2000×1 column broadcast over the 128 lanes reads, at (p, q), the column at p. -/
theorem bcastCol_apply (v : (⟨2, ![2000, 1]⟩ : Shape).Idx → Ideal .f32) (h : (⟨2, ![2000, 1]⟩ : Shape).Broadcasts ⟨2, ![2000, 128]⟩)
    (p : Fin 2000) (q : Fin 128) : broadcastTo ⟨2, ![2000, 128]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

theorem scaleK_eq (i : Fin 3) (hs : S2000x3.Slices ![0, i.val] S2000x1) (A : Vec Ideal S2000x128 .f32) (D : Vec Ideal S2000x3 .f32) :
    scaleK ![0, i.val] hs A D = scaled (n := 2000) i A D := by
  funext j
  obtain ⟨p, q, rfl⟩ : ∃ (p : Fin 2000) (q : Fin 128), j = ix2 p q := ⟨j 0, j 1, eq_ix2 j⟩
  rw [scaled_ix2]
  unfold scaleK
  rw [shapeCast_self, shapeCast_self]
  show A (ix2 p q) * broadcastTo S2000x128 (extractStridedSlice S2000x1 ![0, i.val] D hs) broadcasts_S2000x1_S2000x128 (ix2 p q) = _
  rw [bcastCol_apply]
  refine congrArg (A (ix2 p q) * ·) ?_
  refine extractStridedSlice_apply ![0, i.val] D hs (ix2 p (0 : Fin 1)) (ix2 p i) fun a => ?_
  match a with
  | ⟨0, _⟩ => show p.val = 0 + p.val; omega
  | ⟨1, _⟩ => show i.val = i.val + 0; omega

/-- The printed clamp. -/
theorem relu_eq (X : FVec Ideal S2000x128 .f32) :
    maximumf X (broadcast S2000x128 (Scalar.ofBits (F := Ideal) .f32 0x00000000#32)) = relu (n := 2000) X := rfl

/-! ## The four payloads -/

theorem pay8_eq (v0 : Vec Ideal S2000x3 .f32) (v5 : Vec Ideal S2000x128 .f32) (v20 : Vec Ideal S128x128 .f32) (v26 : Vec Ideal S1x128 .f32) :
    k0_pay8 v0 v5 v20 v26 = hidden (n := 2000) 0 v5 v0 v20 v26 := by
  show maximumf (layerK (scaleK ![0, 0] slices_S2000x3_o0_0_S2000x1 v5 v0) v20 v26) (broadcast S2000x128 (Scalar.ofBits (F := Ideal) .f32 0x00000000#32)) = _
  rw [relu_eq, layerK_eq,
    show scaleK ![0, 0] slices_S2000x3_o0_0_S2000x1 v5 v0 = scaled (n := 2000) 0 v5 v0 from scaleK_eq 0 slices_S2000x3_o0_0_S2000x1 v5 v0]
  rfl

theorem pay9_eq (v0 : Vec Ideal S2000x3 .f32) (v10 : Vec Ideal S2000x128 .f32) (v22 : Vec Ideal S128x128 .f32) (v28 : Vec Ideal S1x128 .f32) :
    k0_pay9 (k0_pay2 v0 v10) (k0_pay4 v22) (k0_pay6 v28) = hidden (n := 2000) 1 v10 v0 v22 v28 := by
  show maximumf (layerK (scaleK ![0, 1] slices_S2000x3_o0_1_S2000x1 v10 v0) v22 v28) (broadcast S2000x128 (Scalar.ofBits (F := Ideal) .f32 0x00000000#32)) = _
  rw [relu_eq, layerK_eq,
    show scaleK ![0, 1] slices_S2000x3_o0_1_S2000x1 v10 v0 = scaled (n := 2000) 1 v10 v0 from scaleK_eq 1 slices_S2000x3_o0_1_S2000x1 v10 v0]
  rfl

theorem pay10_eq (v0 : Vec Ideal S2000x3 .f32) (v15 : Vec Ideal S2000x128 .f32) (v24 : Vec Ideal S128x128 .f32) (v30 : Vec Ideal S1x128 .f32) :
    k0_pay10 (k0_pay3 v0 v15) (k0_pay5 v24) (k0_pay7 v30) = hidden (n := 2000) 2 v15 v0 v24 v30 := by
  show maximumf (layerK (scaleK ![0, 2] slices_S2000x3_o0_2_S2000x1 v15 v0) v24 v30) (broadcast S2000x128 (Scalar.ofBits (F := Ideal) .f32 0x00000000#32)) = _
  rw [relu_eq, layerK_eq,
    show scaleK ![0, 2] slices_S2000x3_o0_2_S2000x1 v15 v0 = scaled (n := 2000) 2 v15 v0 from scaleK_eq 2 slices_S2000x3_o0_2_S2000x1 v15 v0]
  rfl

theorem pay11_eq (v14 v19 : FVec Ideal S2000x128 .bf16) (v23 v25 : FVec Ideal S128x128 .bf16) (v29 v31 : FVec Ideal S1x128 .f32) (v36 : FVec Ideal S2000x128 .f32)
    (v49 : Vec Ideal S128x128 .f32) (v51 : Vec Ideal S1x128 .f32) (v53 : Vec Ideal S128x128 .f32) (v55 : Vec Ideal S1x128 .f32) :
    k0_pay11 v14 v19 v23 v25 v29 v31 v36 v49 v51 v53 v55
      = recon (n := 2000) v36 (k0_pay9 v14 v23 v29) (k0_pay10 v19 v25 v31) v49 v51 v53 v55 := by
  show layerK (maximumf (layerK (addf (addf v36 (k0_pay9 v14 v23 v29)) (k0_pay10 v19 v25 v31)) v49 v51)
      (broadcast S2000x128 (Scalar.ofBits (F := Ideal) .f32 0x00000000#32))) v53 v55 = _
  rw [layerK_eq, relu_eq, layerK_eq]
  rfl

/-- The reconstruction payload of the loaded blocks, all four payloads read at once. -/
theorem pay11_full (v0 : Vec Ideal S2000x3 .f32) (v5 v10 v15 : Vec Ideal S2000x128 .f32) (v20 v22 v24 : Vec Ideal S128x128 .f32) (v26 v28 v30 : Vec Ideal S1x128 .f32)
    (v49 : Vec Ideal S128x128 .f32) (v51 : Vec Ideal S1x128 .f32) (v53 : Vec Ideal S128x128 .f32) (v55 : Vec Ideal S1x128 .f32) :
    k0_pay11 (k0_pay2 v0 v10) (k0_pay3 v0 v15) (k0_pay4 v22) (k0_pay5 v24) (k0_pay6 v28) (k0_pay7 v30) (k0_pay8 v0 v5 v20 v26) v49 v51 v53 v55
      = recon (n := 2000) (hidden (n := 2000) 0 v5 v0 v20 v26) (hidden (n := 2000) 1 v10 v0 v22 v28) (hidden (n := 2000) 2 v15 v0 v24 v30) v49 v51 v53 v55 := by
  rw [pay11_eq, pay8_eq, pay9_eq, pay10_eq]

end Cert.KernelIdeal.Pay

end
-- ==== Proof.KI.Value.lean ====
/-
  What the idealized kernel's four result arrays hold after the run, as whole-array functions of what the region
  finds in its operand arrays.  Grid point t stages rows 2000·t … 2000·t+1999 of the three aggregated-feature arrays
  and of the in-degree scales, and the ten weight and bias arrays whole; it writes back the same rows of the four results.
  The stored payloads are the hidden layers and the reconstruction of the staged blocks (the payload lemmas), and those
  are row-local: so the block written back at t is block t of the hidden layers and the reconstruction OF THE WHOLE
  ARRAYS.  The fifty blocks tile each result array (row r lies in block r / 2000), so each result array ends as that
  function everywhere.
-/
import proofs.«153691_j36636071035262_2_alg».proof.Proof.KI.Frame
import proofs.«153691_j36636071035262_2_alg».proof.Proof.KI.Pay
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the fifty grid points -/

/-- A row window's block index at point t is (t, 0). -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_14.index t (0 : Fin 2) = t.val ∧ win0_14.index t (1 : Fin 2) = 0
    ∧ win0_15.index t (0 : Fin 2) = t.val ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

/-- A resident window's block index is (0, 0) at every point. -/
theorem idx_whole : ∀ t : Fin cfg0.N, win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0 :=
  (by decide +kernel : ∀ t : Fin grid0.N, _)

/-- Row p of block t is row 2000·t + p of the array. -/
def rowOf (t : Fin cfg0.N) (p : Fin 2000) : Fin 100000 :=
  ⟨2000 * t.val + p.val, by have := t.isLt; have h : cfg0.N = 50 := N_0; have := p.isLt; omega⟩

/-! ## A window's block read off ANY contents of its array -/

theorem read0 (c : Dev nD) (t : Fin cfg0.N) (X : Buf (Elt Ideal) ((cfg0.win 0).arr.view.loc (c.tc : Thread nD τ))) (p : Fin 2000) (k : Fin 128) :
    (((cfg0.win 0).blk t).view.read (Elt Ideal) X) (ix2 p k) = X (ix2 (rowOf t p) k) := by
  show X (((cfg0.win 0).blk t).view.emb (ix2 p k)) = _
  refine congrArg X (funext fun a => Fin.ext ?_)
  obtain ⟨e0a, e0b, e1a, e1b, e2a, e2b, e3a, e3b, e14a, e14b, e15a, e15b, e16a, e16b, e17a, e17b⟩ := idx_rows t
  match a with
  | ⟨0, _⟩ => show win0_0.index t (0 : Fin 2) * 2000 + 1 * p.val = 2000 * t.val + p.val; omega
  | ⟨1, _⟩ => show win0_0.index t (1 : Fin 2) * 128 + 1 * k.val = k.val; omega
theorem read1 (c : Dev nD) (t : Fin cfg0.N) (X : Buf (Elt Ideal) ((cfg0.win 1).arr.view.loc (c.tc : Thread nD τ))) (p : Fin 2000) (k : Fin 128) :
    (((cfg0.win 1).blk t).view.read (Elt Ideal) X) (ix2 p k) = X (ix2 (rowOf t p) k) := by
  show X (((cfg0.win 1).blk t).view.emb (ix2 p k)) = _
  refine congrArg X (funext fun a => Fin.ext ?_)
  obtain ⟨e0a, e0b, e1a, e1b, e2a, e2b, e3a, e3b, e14a, e14b, e15a, e15b, e16a, e16b, e17a, e17b⟩ := idx_rows t
  match a with
  | ⟨0, _⟩ => show win0_1.index t (0 : Fin 2) * 2000 + 1 * p.val = 2000 * t.val + p.val; omega
  | ⟨1, _⟩ => show win0_1.index t (1 : Fin 2) * 128 + 1 * k.val = k.val; omega
theorem read2 (c : Dev nD) (t : Fin cfg0.N) (X : Buf (Elt Ideal) ((cfg0.win 2).arr.view.loc (c.tc : Thread nD τ))) (p : Fin 2000) (k : Fin 128) :
    (((cfg0.win 2).blk t).view.read (Elt Ideal) X) (ix2 p k) = X (ix2 (rowOf t p) k) := by
  show X (((cfg0.win 2).blk t).view.emb (ix2 p k)) = _
  refine congrArg X (funext fun a => Fin.ext ?_)
  obtain ⟨e0a, e0b, e1a, e1b, e2a, e2b, e3a, e3b, e14a, e14b, e15a, e15b, e16a, e16b, e17a, e17b⟩ := idx_rows t
  match a with
  | ⟨0, _⟩ => show win0_2.index t (0 : Fin 2) * 2000 + 1 * p.val = 2000 * t.val + p.val; omega
  | ⟨1, _⟩ => show win0_2.index t (1 : Fin 2) * 128 + 1 * k.val = k.val; omega
theorem read3 (c : Dev nD) (t : Fin cfg0.N) (X : Buf (Elt Ideal) ((cfg0.win 3).arr.view.loc (c.tc : Thread nD τ))) (p : Fin 2000) (k : Fin 3) :
    (((cfg0.win 3).blk t).view.read (Elt Ideal) X) (ix2 p k) = X (ix2 (rowOf t p) k) := by
  show X (((cfg0.win 3).blk t).view.emb (ix2 p k)) = _
  refine congrArg X (funext fun a => Fin.ext ?_)
  obtain ⟨e0a, e0b, e1a, e1b, e2a, e2b, e3a, e3b, e14a, e14b, e15a, e15b, e16a, e16b, e17a, e17b⟩ := idx_rows t
  match a with
  | ⟨0, _⟩ => show win0_3.index t (0 : Fin 2) * 2000 + 1 * p.val = 2000 * t.val + p.val; omega
  | ⟨1, _⟩ => show win0_3.index t (1 : Fin 2) * 3 + 1 * k.val = k.val; omega

theorem readWhole4 (c : Dev nD) (t : Fin cfg0.N) (X : Buf (Elt Ideal) ((cfg0.win 4).arr.view.loc (c.tc : Thread nD τ))) : (((cfg0.win 4).blk t).view.read (Elt Ideal) X) = X := by
  funext y
  show X (((cfg0.win 4).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_4.index t (0 : Fin 2) * 128 + 1 * (y 0).val = (y 0).val; omega
  | ⟨1, _⟩ => show win0_4.index t (1 : Fin 2) * 128 + 1 * (y 1).val = (y 1).val; omega
theorem readWhole5 (c : Dev nD) (t : Fin cfg0.N) (X : Buf (Elt Ideal) ((cfg0.win 5).arr.view.loc (c.tc : Thread nD τ))) : (((cfg0.win 5).blk t).view.read (Elt Ideal) X) = X := by
  funext y
  show X (((cfg0.win 5).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_5.index t (0 : Fin 2) * 1 + 1 * (y 0).val = (y 0).val; omega
  | ⟨1, _⟩ => show win0_5.index t (1 : Fin 2) * 128 + 1 * (y 1).val = (y 1).val; omega
theorem readWhole6 (c : Dev nD) (t : Fin cfg0.N) (X : Buf (Elt Ideal) ((cfg0.win 6).arr.view.loc (c.tc : Thread nD τ))) : (((cfg0.win 6).blk t).view.read (Elt Ideal) X) = X := by
  funext y
  show X (((cfg0.win 6).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_6.index t (0 : Fin 2) * 128 + 1 * (y 0).val = (y 0).val; omega
  | ⟨1, _⟩ => show win0_6.index t (1 : Fin 2) * 128 + 1 * (y 1).val = (y 1).val; omega
theorem readWhole7 (c : Dev nD) (t : Fin cfg0.N) (X : Buf (Elt Ideal) ((cfg0.win 7).arr.view.loc (c.tc : Thread nD τ))) : (((cfg0.win 7).blk t).view.read (Elt Ideal) X) = X := by
  funext y
  show X (((cfg0.win 7).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_7.index t (0 : Fin 2) * 1 + 1 * (y 0).val = (y 0).val; omega
  | ⟨1, _⟩ => show win0_7.index t (1 : Fin 2) * 128 + 1 * (y 1).val = (y 1).val; omega
theorem readWhole8 (c : Dev nD) (t : Fin cfg0.N) (X : Buf (Elt Ideal) ((cfg0.win 8).arr.view.loc (c.tc : Thread nD τ))) : (((cfg0.win 8).blk t).view.read (Elt Ideal) X) = X := by
  funext y
  show X (((cfg0.win 8).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_8.index t (0 : Fin 2) * 128 + 1 * (y 0).val = (y 0).val; omega
  | ⟨1, _⟩ => show win0_8.index t (1 : Fin 2) * 128 + 1 * (y 1).val = (y 1).val; omega
theorem readWhole9 (c : Dev nD) (t : Fin cfg0.N) (X : Buf (Elt Ideal) ((cfg0.win 9).arr.view.loc (c.tc : Thread nD τ))) : (((cfg0.win 9).blk t).view.read (Elt Ideal) X) = X := by
  funext y
  show X (((cfg0.win 9).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_9.index t (0 : Fin 2) * 1 + 1 * (y 0).val = (y 0).val; omega
  | ⟨1, _⟩ => show win0_9.index t (1 : Fin 2) * 128 + 1 * (y 1).val = (y 1).val; omega
theorem readWhole10 (c : Dev nD) (t : Fin cfg0.N) (X : Buf (Elt Ideal) ((cfg0.win 10).arr.view.loc (c.tc : Thread nD τ))) : (((cfg0.win 10).blk t).view.read (Elt Ideal) X) = X := by
  funext y
  show X (((cfg0.win 10).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_10.index t (0 : Fin 2) * 128 + 1 * (y 0).val = (y 0).val; omega
  | ⟨1, _⟩ => show win0_10.index t (1 : Fin 2) * 128 + 1 * (y 1).val = (y 1).val; omega
theorem readWhole11 (c : Dev nD) (t : Fin cfg0.N) (X : Buf (Elt Ideal) ((cfg0.win 11).arr.view.loc (c.tc : Thread nD τ))) : (((cfg0.win 11).blk t).view.read (Elt Ideal) X) = X := by
  funext y
  show X (((cfg0.win 11).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_11.index t (0 : Fin 2) * 1 + 1 * (y 0).val = (y 0).val; omega
  | ⟨1, _⟩ => show win0_11.index t (1 : Fin 2) * 128 + 1 * (y 1).val = (y 1).val; omega
theorem readWhole12 (c : Dev nD) (t : Fin cfg0.N) (X : Buf (Elt Ideal) ((cfg0.win 12).arr.view.loc (c.tc : Thread nD τ))) : (((cfg0.win 12).blk t).view.read (Elt Ideal) X) = X := by
  funext y
  show X (((cfg0.win 12).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_12.index t (0 : Fin 2) * 128 + 1 * (y 0).val = (y 0).val; omega
  | ⟨1, _⟩ => show win0_12.index t (1 : Fin 2) * 128 + 1 * (y 1).val = (y 1).val; omega
theorem readWhole13 (c : Dev nD) (t : Fin cfg0.N) (X : Buf (Elt Ideal) ((cfg0.win 13).arr.view.loc (c.tc : Thread nD τ))) : (((cfg0.win 13).blk t).view.read (Elt Ideal) X) = X := by
  funext y
  show X (((cfg0.win 13).blk t).view.emb y) = X y
  refine congrArg X (funext fun a => Fin.ext ?_)
  obtain ⟨e4a, e4b, e5a, e5b, e6a, e6b, e7a, e7b, e8a, e8b, e9a, e9b, e10a, e10b, e11a, e11b, e12a, e12b, e13a, e13b⟩ := idx_whole t
  match a with
  | ⟨0, _⟩ => show win0_13.index t (0 : Fin 2) * 1 + 1 * (y 0).val = (y 0).val; omega
  | ⟨1, _⟩ => show win0_13.index t (1 : Fin 2) * 128 + 1 * (y 1).val = (y 1).val; omega

theorem emb14 (t : Fin cfg0.N) (p : Fin 2000) (q : Fin 128) :
    ((cfg0.win 14).blk t).view.emb (ix2 p q) = ix2 (rowOf t p) q := by
  funext a; apply Fin.ext
  obtain ⟨e0a, e0b, e1a, e1b, e2a, e2b, e3a, e3b, e14a, e14b, e15a, e15b, e16a, e16b, e17a, e17b⟩ := idx_rows t
  match a with
  | ⟨0, _⟩ => show win0_14.index t (0 : Fin 2) * 2000 + 1 * p.val = 2000 * t.val + p.val; omega
  | ⟨1, _⟩ => show win0_14.index t (1 : Fin 2) * 128 + 1 * q.val = q.val; omega
theorem emb15 (t : Fin cfg0.N) (p : Fin 2000) (q : Fin 128) :
    ((cfg0.win 15).blk t).view.emb (ix2 p q) = ix2 (rowOf t p) q := by
  funext a; apply Fin.ext
  obtain ⟨e0a, e0b, e1a, e1b, e2a, e2b, e3a, e3b, e14a, e14b, e15a, e15b, e16a, e16b, e17a, e17b⟩ := idx_rows t
  match a with
  | ⟨0, _⟩ => show win0_15.index t (0 : Fin 2) * 2000 + 1 * p.val = 2000 * t.val + p.val; omega
  | ⟨1, _⟩ => show win0_15.index t (1 : Fin 2) * 128 + 1 * q.val = q.val; omega
theorem emb16 (t : Fin cfg0.N) (p : Fin 2000) (q : Fin 128) :
    ((cfg0.win 16).blk t).view.emb (ix2 p q) = ix2 (rowOf t p) q := by
  funext a; apply Fin.ext
  obtain ⟨e0a, e0b, e1a, e1b, e2a, e2b, e3a, e3b, e14a, e14b, e15a, e15b, e16a, e16b, e17a, e17b⟩ := idx_rows t
  match a with
  | ⟨0, _⟩ => show win0_16.index t (0 : Fin 2) * 2000 + 1 * p.val = 2000 * t.val + p.val; omega
  | ⟨1, _⟩ => show win0_16.index t (1 : Fin 2) * 128 + 1 * q.val = q.val; omega
theorem emb17 (t : Fin cfg0.N) (p : Fin 2000) (q : Fin 128) :
    ((cfg0.win 17).blk t).view.emb (ix2 p q) = ix2 (rowOf t p) q := by
  funext a; apply Fin.ext
  obtain ⟨e0a, e0b, e1a, e1b, e2a, e2b, e3a, e3b, e14a, e14b, e15a, e15b, e16a, e16b, e17a, e17b⟩ := idx_rows t
  match a with
  | ⟨0, _⟩ => show win0_17.index t (0 : Fin 2) * 2000 + 1 * p.val = 2000 * t.val + p.val; omega
  | ⟨1, _⟩ => show win0_17.index t (1 : Fin 2) * 128 + 1 * q.val = q.val; omega

/-! ## Row locality through the windows -/

theorem hidRows15 (c : Dev nD) (t : Fin cfg0.N) (X : Buf (Elt Ideal) ((cfg0.win 0).arr.view.loc (c.tc : Thread nD τ))) (D : Buf (Elt Ideal) ((cfg0.win 3).arr.view.loc (c.tc : Thread nD τ))) (W : A2 128 128) (b : A2 1 128) (p : Fin 2000) (q : Fin 128) :
    hidden (n := 2000) 0 (((cfg0.win 0).blk t).view.read (Elt Ideal) X) (((cfg0.win 3).blk t).view.read (Elt Ideal) D) W b (ix2 p q) = hidden (n := 100000) 0 X D W b (ix2 (rowOf t p) q) :=
  hidden_rows 0 _ _ _ _ W b p (rowOf t p) (fun k => read0 c t X p k) (read3 c t D p 0) q
theorem hidRows16 (c : Dev nD) (t : Fin cfg0.N) (X : Buf (Elt Ideal) ((cfg0.win 1).arr.view.loc (c.tc : Thread nD τ))) (D : Buf (Elt Ideal) ((cfg0.win 3).arr.view.loc (c.tc : Thread nD τ))) (W : A2 128 128) (b : A2 1 128) (p : Fin 2000) (q : Fin 128) :
    hidden (n := 2000) 1 (((cfg0.win 1).blk t).view.read (Elt Ideal) X) (((cfg0.win 3).blk t).view.read (Elt Ideal) D) W b (ix2 p q) = hidden (n := 100000) 1 X D W b (ix2 (rowOf t p) q) :=
  hidden_rows 1 _ _ _ _ W b p (rowOf t p) (fun k => read1 c t X p k) (read3 c t D p 1) q
theorem hidRows17 (c : Dev nD) (t : Fin cfg0.N) (X : Buf (Elt Ideal) ((cfg0.win 2).arr.view.loc (c.tc : Thread nD τ))) (D : Buf (Elt Ideal) ((cfg0.win 3).arr.view.loc (c.tc : Thread nD τ))) (W : A2 128 128) (b : A2 1 128) (p : Fin 2000) (q : Fin 128) :
    hidden (n := 2000) 2 (((cfg0.win 2).blk t).view.read (Elt Ideal) X) (((cfg0.win 3).blk t).view.read (Elt Ideal) D) W b (ix2 p q) = hidden (n := 100000) 2 X D W b (ix2 (rowOf t p) q) :=
  hidden_rows 2 _ _ _ _ W b p (rowOf t p) (fun k => read2 c t X p k) (read3 c t D p 2) q

/-! ## The four result arrays as functions of the operand arrays as the region finds them -/

/-- Hidden layer 0 of the whole arrays. -/
def G15 (c : Dev nD) : A2 100000 128 := hidden (n := 100000) 0 (V m c (Pipeline.arrRef spec0 0)) (V m c (Pipeline.arrRef spec0 3)) (V m c (Pipeline.arrRef spec0 4)) (V m c (Pipeline.arrRef spec0 5))
/-- Hidden layer 1 of the whole arrays. -/
def G16 (c : Dev nD) : A2 100000 128 := hidden (n := 100000) 1 (V m c (Pipeline.arrRef spec0 1)) (V m c (Pipeline.arrRef spec0 3)) (V m c (Pipeline.arrRef spec0 6)) (V m c (Pipeline.arrRef spec0 7))
/-- Hidden layer 2 of the whole arrays. -/
def G17 (c : Dev nD) : A2 100000 128 := hidden (n := 100000) 2 (V m c (Pipeline.arrRef spec0 2)) (V m c (Pipeline.arrRef spec0 3)) (V m c (Pipeline.arrRef spec0 8)) (V m c (Pipeline.arrRef spec0 9))
/-- The reconstruction of the whole arrays. -/
def G14 (c : Dev nD) : A2 100000 128 := recon (n := 100000) (G15 m c) (G16 m c) (G17 m c) (V m c (Pipeline.arrRef spec0 10)) (V m c (Pipeline.arrRef spec0 11)) (V m c (Pipeline.arrRef spec0 12)) (V m c (Pipeline.arrRef spec0 13))

/-! ## What each point writes back -/

theorem out15_block (c : Dev nD) (t : Fin cfg0.N) (Vv : (b : Ref sig .tc) → Buf (Elt Ideal) ((c : Thread nD τ).loc b)) :
    out15 (((cfg0.win 0).blk t).view.read (Elt Ideal) (Vv (Pipeline.arrRef spec0 0))) (((cfg0.win 3).blk t).view.read (Elt Ideal) (Vv (Pipeline.arrRef spec0 3))) (((cfg0.win 4).blk t).view.read (Elt Ideal) (Vv (Pipeline.arrRef spec0 4))) (((cfg0.win 5).blk t).view.read (Elt Ideal) (Vv (Pipeline.arrRef spec0 5)))
      = ((cfg0.win 15).blk t).view.read (Elt Ideal) (hidden (n := 100000) 0 (Vv (Pipeline.arrRef spec0 0)) (Vv (Pipeline.arrRef spec0 3)) (Vv (Pipeline.arrRef spec0 4)) (Vv (Pipeline.arrRef spec0 5))) := by
  unfold out15
  rw [View.canon_unit_zero hz]
  simp only [View.ld_unit_zero (S := S2000x128) hz, View.ld_unit_zero (S := S2000x3) hz, View.ld_unit_zero (S := S128x128) hz, View.ld_unit_zero (S := S1x128) hz]
  rw [Pay.pay8_eq, readWhole4 c t, readWhole5 c t]
  funext y
  obtain ⟨p, q, rfl⟩ : ∃ (p : Fin 2000) (q : Fin 128), y = ix2 p q := ⟨y 0, y 1, eq_ix2 y⟩
  show hidden (n := 2000) 0 (((cfg0.win 0).blk t).view.read (Elt Ideal) (Vv (Pipeline.arrRef spec0 0))) (((cfg0.win 3).blk t).view.read (Elt Ideal) (Vv (Pipeline.arrRef spec0 3))) (Vv (Pipeline.arrRef spec0 4)) (Vv (Pipeline.arrRef spec0 5)) (ix2 p q)
    = hidden (n := 100000) 0 (Vv (Pipeline.arrRef spec0 0)) (Vv (Pipeline.arrRef spec0 3)) (Vv (Pipeline.arrRef spec0 4)) (Vv (Pipeline.arrRef spec0 5)) (((cfg0.win 15).blk t).view.emb (ix2 p q))
  rw [emb15]
  exact hidRows15 c t _ _ _ _ p q

theorem flushed15_eq (c : Dev nD) (t : Fin cfg0.N) :
    (dats m 0 c).flushed 15 t = ((cfg0.win 15).blk t).view.read (Elt Ideal) (G15 m c) := by
  show (cfg0.win 15).cut (grid0.coords t) ((dats m 0 c).after 15 t) = _
  rw [after15]
  exact out15_block c t (V m c)

theorem out16_block (c : Dev nD) (t : Fin cfg0.N) (Vv : (b : Ref sig .tc) → Buf (Elt Ideal) ((c : Thread nD τ).loc b)) :
    out16 (((cfg0.win 1).blk t).view.read (Elt Ideal) (Vv (Pipeline.arrRef spec0 1))) (((cfg0.win 3).blk t).view.read (Elt Ideal) (Vv (Pipeline.arrRef spec0 3))) (((cfg0.win 6).blk t).view.read (Elt Ideal) (Vv (Pipeline.arrRef spec0 6))) (((cfg0.win 7).blk t).view.read (Elt Ideal) (Vv (Pipeline.arrRef spec0 7)))
      = ((cfg0.win 16).blk t).view.read (Elt Ideal) (hidden (n := 100000) 1 (Vv (Pipeline.arrRef spec0 1)) (Vv (Pipeline.arrRef spec0 3)) (Vv (Pipeline.arrRef spec0 6)) (Vv (Pipeline.arrRef spec0 7))) := by
  unfold out16
  rw [View.canon_unit_zero hz]
  simp only [View.ld_unit_zero (S := S2000x128) hz, View.ld_unit_zero (S := S2000x3) hz, View.ld_unit_zero (S := S128x128) hz, View.ld_unit_zero (S := S1x128) hz]
  rw [Pay.pay9_eq, readWhole6 c t, readWhole7 c t]
  funext y
  obtain ⟨p, q, rfl⟩ : ∃ (p : Fin 2000) (q : Fin 128), y = ix2 p q := ⟨y 0, y 1, eq_ix2 y⟩
  show hidden (n := 2000) 1 (((cfg0.win 1).blk t).view.read (Elt Ideal) (Vv (Pipeline.arrRef spec0 1))) (((cfg0.win 3).blk t).view.read (Elt Ideal) (Vv (Pipeline.arrRef spec0 3))) (Vv (Pipeline.arrRef spec0 6)) (Vv (Pipeline.arrRef spec0 7)) (ix2 p q)
    = hidden (n := 100000) 1 (Vv (Pipeline.arrRef spec0 1)) (Vv (Pipeline.arrRef spec0 3)) (Vv (Pipeline.arrRef spec0 6)) (Vv (Pipeline.arrRef spec0 7)) (((cfg0.win 16).blk t).view.emb (ix2 p q))
  rw [emb16]
  exact hidRows16 c t _ _ _ _ p q

theorem flushed16_eq (c : Dev nD) (t : Fin cfg0.N) :
    (dats m 0 c).flushed 16 t = ((cfg0.win 16).blk t).view.read (Elt Ideal) (G16 m c) := by
  show (cfg0.win 16).cut (grid0.coords t) ((dats m 0 c).after 16 t) = _
  rw [after16]
  exact out16_block c t (V m c)

theorem out17_block (c : Dev nD) (t : Fin cfg0.N) (Vv : (b : Ref sig .tc) → Buf (Elt Ideal) ((c : Thread nD τ).loc b)) :
    out17 (((cfg0.win 2).blk t).view.read (Elt Ideal) (Vv (Pipeline.arrRef spec0 2))) (((cfg0.win 3).blk t).view.read (Elt Ideal) (Vv (Pipeline.arrRef spec0 3))) (((cfg0.win 8).blk t).view.read (Elt Ideal) (Vv (Pipeline.arrRef spec0 8))) (((cfg0.win 9).blk t).view.read (Elt Ideal) (Vv (Pipeline.arrRef spec0 9)))
      = ((cfg0.win 17).blk t).view.read (Elt Ideal) (hidden (n := 100000) 2 (Vv (Pipeline.arrRef spec0 2)) (Vv (Pipeline.arrRef spec0 3)) (Vv (Pipeline.arrRef spec0 8)) (Vv (Pipeline.arrRef spec0 9))) := by
  unfold out17
  rw [View.canon_unit_zero hz]
  simp only [View.ld_unit_zero (S := S2000x128) hz, View.ld_unit_zero (S := S2000x3) hz, View.ld_unit_zero (S := S128x128) hz, View.ld_unit_zero (S := S1x128) hz]
  rw [Pay.pay10_eq, readWhole8 c t, readWhole9 c t]
  funext y
  obtain ⟨p, q, rfl⟩ : ∃ (p : Fin 2000) (q : Fin 128), y = ix2 p q := ⟨y 0, y 1, eq_ix2 y⟩
  show hidden (n := 2000) 2 (((cfg0.win 2).blk t).view.read (Elt Ideal) (Vv (Pipeline.arrRef spec0 2))) (((cfg0.win 3).blk t).view.read (Elt Ideal) (Vv (Pipeline.arrRef spec0 3))) (Vv (Pipeline.arrRef spec0 8)) (Vv (Pipeline.arrRef spec0 9)) (ix2 p q)
    = hidden (n := 100000) 2 (Vv (Pipeline.arrRef spec0 2)) (Vv (Pipeline.arrRef spec0 3)) (Vv (Pipeline.arrRef spec0 8)) (Vv (Pipeline.arrRef spec0 9)) (((cfg0.win 17).blk t).view.emb (ix2 p q))
  rw [emb17]
  exact hidRows17 c t _ _ _ _ p q

theorem flushed17_eq (c : Dev nD) (t : Fin cfg0.N) :
    (dats m 0 c).flushed 17 t = ((cfg0.win 17).blk t).view.read (Elt Ideal) (G17 m c) := by
  show (cfg0.win 17).cut (grid0.coords t) ((dats m 0 c).after 17 t) = _
  rw [after17]
  exact out17_block c t (V m c)

set_option maxHeartbeats 2000000 in
theorem out14_block (c : Dev nD) (t : Fin cfg0.N) (Vv : (b : Ref sig .tc) → Buf (Elt Ideal) ((c : Thread nD τ).loc b)) :
    out14 (((cfg0.win 0).blk t).view.read (Elt Ideal) (Vv (Pipeline.arrRef spec0 0))) (((cfg0.win 1).blk t).view.read (Elt Ideal) (Vv (Pipeline.arrRef spec0 1))) (((cfg0.win 2).blk t).view.read (Elt Ideal) (Vv (Pipeline.arrRef spec0 2))) (((cfg0.win 3).blk t).view.read (Elt Ideal) (Vv (Pipeline.arrRef spec0 3))) (((cfg0.win 4).blk t).view.read (Elt Ideal) (Vv (Pipeline.arrRef spec0 4))) (((cfg0.win 5).blk t).view.read (Elt Ideal) (Vv (Pipeline.arrRef spec0 5))) (((cfg0.win 6).blk t).view.read (Elt Ideal) (Vv (Pipeline.arrRef spec0 6))) (((cfg0.win 7).blk t).view.read (Elt Ideal) (Vv (Pipeline.arrRef spec0 7))) (((cfg0.win 8).blk t).view.read (Elt Ideal) (Vv (Pipeline.arrRef spec0 8))) (((cfg0.win 9).blk t).view.read (Elt Ideal) (Vv (Pipeline.arrRef spec0 9))) (((cfg0.win 10).blk t).view.read (Elt Ideal) (Vv (Pipeline.arrRef spec0 10))) (((cfg0.win 11).blk t).view.read (Elt Ideal) (Vv (Pipeline.arrRef spec0 11))) (((cfg0.win 12).blk t).view.read (Elt Ideal) (Vv (Pipeline.arrRef spec0 12))) (((cfg0.win 13).blk t).view.read (Elt Ideal) (Vv (Pipeline.arrRef spec0 13)))
      = ((cfg0.win 14).blk t).view.read (Elt Ideal) (recon (n := 100000) (hidden (n := 100000) 0 (Vv (Pipeline.arrRef spec0 0)) (Vv (Pipeline.arrRef spec0 3)) (Vv (Pipeline.arrRef spec0 4)) (Vv (Pipeline.arrRef spec0 5))) (hidden (n := 100000) 1 (Vv (Pipeline.arrRef spec0 1)) (Vv (Pipeline.arrRef spec0 3)) (Vv (Pipeline.arrRef spec0 6)) (Vv (Pipeline.arrRef spec0 7))) (hidden (n := 100000) 2 (Vv (Pipeline.arrRef spec0 2)) (Vv (Pipeline.arrRef spec0 3)) (Vv (Pipeline.arrRef spec0 8)) (Vv (Pipeline.arrRef spec0 9)))
          (Vv (Pipeline.arrRef spec0 10)) (Vv (Pipeline.arrRef spec0 11)) (Vv (Pipeline.arrRef spec0 12)) (Vv (Pipeline.arrRef spec0 13))) := by
  unfold out14
  rw [View.canon_unit_zero hz]
  simp only [View.ld_unit_zero (S := S2000x128) hz, View.ld_unit_zero (S := S2000x3) hz, View.ld_unit_zero (S := S128x128) hz, View.ld_unit_zero (S := S1x128) hz]
  rw [Pay.pay11_full, readWhole4 c t, readWhole5 c t, readWhole6 c t, readWhole7 c t, readWhole8 c t, readWhole9 c t, readWhole10 c t, readWhole11 c t, readWhole12 c t, readWhole13 c t]
  funext y
  obtain ⟨p, q, rfl⟩ : ∃ (p : Fin 2000) (q : Fin 128), y = ix2 p q := ⟨y 0, y 1, eq_ix2 y⟩
  show recon (n := 2000) (hidden (n := 2000) 0 (((cfg0.win 0).blk t).view.read (Elt Ideal) (Vv (Pipeline.arrRef spec0 0))) (((cfg0.win 3).blk t).view.read (Elt Ideal) (Vv (Pipeline.arrRef spec0 3))) (Vv (Pipeline.arrRef spec0 4)) (Vv (Pipeline.arrRef spec0 5)))
      (hidden (n := 2000) 1 (((cfg0.win 1).blk t).view.read (Elt Ideal) (Vv (Pipeline.arrRef spec0 1))) (((cfg0.win 3).blk t).view.read (Elt Ideal) (Vv (Pipeline.arrRef spec0 3))) (Vv (Pipeline.arrRef spec0 6)) (Vv (Pipeline.arrRef spec0 7)))
      (hidden (n := 2000) 2 (((cfg0.win 2).blk t).view.read (Elt Ideal) (Vv (Pipeline.arrRef spec0 2))) (((cfg0.win 3).blk t).view.read (Elt Ideal) (Vv (Pipeline.arrRef spec0 3))) (Vv (Pipeline.arrRef spec0 8)) (Vv (Pipeline.arrRef spec0 9)))
      (Vv (Pipeline.arrRef spec0 10)) (Vv (Pipeline.arrRef spec0 11)) (Vv (Pipeline.arrRef spec0 12)) (Vv (Pipeline.arrRef spec0 13)) (ix2 p q)
    = recon (n := 100000) (hidden (n := 100000) 0 (Vv (Pipeline.arrRef spec0 0)) (Vv (Pipeline.arrRef spec0 3)) (Vv (Pipeline.arrRef spec0 4)) (Vv (Pipeline.arrRef spec0 5))) (hidden (n := 100000) 1 (Vv (Pipeline.arrRef spec0 1)) (Vv (Pipeline.arrRef spec0 3)) (Vv (Pipeline.arrRef spec0 6)) (Vv (Pipeline.arrRef spec0 7))) (hidden (n := 100000) 2 (Vv (Pipeline.arrRef spec0 2)) (Vv (Pipeline.arrRef spec0 3)) (Vv (Pipeline.arrRef spec0 8)) (Vv (Pipeline.arrRef spec0 9)))
      (Vv (Pipeline.arrRef spec0 10)) (Vv (Pipeline.arrRef spec0 11)) (Vv (Pipeline.arrRef spec0 12)) (Vv (Pipeline.arrRef spec0 13)) (((cfg0.win 14).blk t).view.emb (ix2 p q))
  rw [emb14]
  exact recon_rows _ _ _ _ _ _ _ _ _ _ p (rowOf t p) (fun k => hidRows15 c t _ _ _ _ p k) (fun k => hidRows16 c t _ _ _ _ p k) (fun k => hidRows17 c t _ _ _ _ p k) q

theorem flushed14_eq (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after14]
  exact out14_block c t (V m c)

/-! ## The fifty blocks tile each result array -/

theorem mem_blk14 (t : Fin cfg0.N) (i : S100000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v108_0).slice (win0_14.rect t)).set ↔ _
  rw [View.set_slice_whole, Rect.mem_set_unit]
  exact Iff.rfl

theorem cover14 (i : S100000x128.Idx) : ∃ t : Fin cfg0.N, (cfg0.win 14).flush t = true ∧ i ∈ ((cfg0.win 14).blk t).view.set := by
  have hi0 : (i 0).val < 100000 := (i 0).isLt
  have hi1 : (i 1).val < 128 := (i 1).isLt
  have hN : cfg0.N = 50 := N_0
  have hN' : grid0.N = 50 := N_0
  obtain ⟨t, ht⟩ : ∃ t : Fin cfg0.N, t.val = (i 0).val / 2000 := ⟨⟨(i 0).val / 2000, by omega⟩, rfl⟩
  refine ⟨t, flush0_14 t, ?_⟩
  rw [mem_blk14]
  obtain ⟨e0a, e0b, e1a, e1b, e2a, e2b, e3a, e3b, e14a, e14b, e15a, e15b, e16a, e16b, e17a, e17b⟩ := idx_rows t
  intro a
  match a with
  | ⟨0, _⟩ =>
    show win0_14.index t (0 : Fin 2) * 2000 ≤ (i 0).val ∧ (i 0).val < win0_14.index t (0 : Fin 2) * 2000 + 2000
    omega
  | ⟨1, _⟩ =>
    show win0_14.index t (1 : Fin 2) * 128 ≤ (i 1).val ∧ (i 1).val < win0_14.index t (1 : Fin 2) * 128 + 128
    omega

theorem final14 (c : Dev nD) : (dats m 0 c).arrAt 14 cfg0.N = G14 m c :=
  (dats m 0 c).arrAt_eq_of_cover 14 (G14 m c) (fun t _ => flushed14_eq m c t) (cover14)

theorem mem_blk15 (t : Fin cfg0.N) (i : S100000x128.Idx) :
    i ∈ ((cfg0.win 15).blk t).view.set ↔ ∀ a : Fin 2, win0_15.index t a * S2000x128.size a ≤ (i a).val ∧ (i a).val < win0_15.index t a * S2000x128.size a + S2000x128.size a := by
  show i ∈ ((View.whole main_v108_1).slice (win0_15.rect t)).set ↔ _
  rw [View.set_slice_whole, Rect.mem_set_unit]
  exact Iff.rfl

theorem cover15 (i : S100000x128.Idx) : ∃ t : Fin cfg0.N, (cfg0.win 15).flush t = true ∧ i ∈ ((cfg0.win 15).blk t).view.set := by
  have hi0 : (i 0).val < 100000 := (i 0).isLt
  have hi1 : (i 1).val < 128 := (i 1).isLt
  have hN : cfg0.N = 50 := N_0
  have hN' : grid0.N = 50 := N_0
  obtain ⟨t, ht⟩ : ∃ t : Fin cfg0.N, t.val = (i 0).val / 2000 := ⟨⟨(i 0).val / 2000, by omega⟩, rfl⟩
  refine ⟨t, flush0_15 t, ?_⟩
  rw [mem_blk15]
  obtain ⟨e0a, e0b, e1a, e1b, e2a, e2b, e3a, e3b, e14a, e14b, e15a, e15b, e16a, e16b, e17a, e17b⟩ := idx_rows t
  intro a
  match a with
  | ⟨0, _⟩ =>
    show win0_15.index t (0 : Fin 2) * 2000 ≤ (i 0).val ∧ (i 0).val < win0_15.index t (0 : Fin 2) * 2000 + 2000
    omega
  | ⟨1, _⟩ =>
    show win0_15.index t (1 : Fin 2) * 128 ≤ (i 1).val ∧ (i 1).val < win0_15.index t (1 : Fin 2) * 128 + 128
    omega

theorem final15 (c : Dev nD) : (dats m 0 c).arrAt 15 cfg0.N = G15 m c :=
  (dats m 0 c).arrAt_eq_of_cover 15 (G15 m c) (fun t _ => flushed15_eq m c t) (cover15)

theorem mem_blk16 (t : Fin cfg0.N) (i : S100000x128.Idx) :
    i ∈ ((cfg0.win 16).blk t).view.set ↔ ∀ a : Fin 2, win0_16.index t a * S2000x128.size a ≤ (i a).val ∧ (i a).val < win0_16.index t a * S2000x128.size a + S2000x128.size a := by
  show i ∈ ((View.whole main_v108_2).slice (win0_16.rect t)).set ↔ _
  rw [View.set_slice_whole, Rect.mem_set_unit]
  exact Iff.rfl

theorem cover16 (i : S100000x128.Idx) : ∃ t : Fin cfg0.N, (cfg0.win 16).flush t = true ∧ i ∈ ((cfg0.win 16).blk t).view.set := by
  have hi0 : (i 0).val < 100000 := (i 0).isLt
  have hi1 : (i 1).val < 128 := (i 1).isLt
  have hN : cfg0.N = 50 := N_0
  have hN' : grid0.N = 50 := N_0
  obtain ⟨t, ht⟩ : ∃ t : Fin cfg0.N, t.val = (i 0).val / 2000 := ⟨⟨(i 0).val / 2000, by omega⟩, rfl⟩
  refine ⟨t, flush0_16 t, ?_⟩
  rw [mem_blk16]
  obtain ⟨e0a, e0b, e1a, e1b, e2a, e2b, e3a, e3b, e14a, e14b, e15a, e15b, e16a, e16b, e17a, e17b⟩ := idx_rows t
  intro a
  match a with
  | ⟨0, _⟩ =>
    show win0_16.index t (0 : Fin 2) * 2000 ≤ (i 0).val ∧ (i 0).val < win0_16.index t (0 : Fin 2) * 2000 + 2000
    omega
  | ⟨1, _⟩ =>
    show win0_16.index t (1 : Fin 2) * 128 ≤ (i 1).val ∧ (i 1).val < win0_16.index t (1 : Fin 2) * 128 + 128
    omega

theorem final16 (c : Dev nD) : (dats m 0 c).arrAt 16 cfg0.N = G16 m c :=
  (dats m 0 c).arrAt_eq_of_cover 16 (G16 m c) (fun t _ => flushed16_eq m c t) (cover16)

theorem mem_blk17 (t : Fin cfg0.N) (i : S100000x128.Idx) :
    i ∈ ((cfg0.win 17).blk t).view.set ↔ ∀ a : Fin 2, win0_17.index t a * S2000x128.size a ≤ (i a).val ∧ (i a).val < win0_17.index t a * S2000x128.size a + S2000x128.size a := by
  show i ∈ ((View.whole main_v108_3).slice (win0_17.rect t)).set ↔ _
  rw [View.set_slice_whole, Rect.mem_set_unit]
  exact Iff.rfl

theorem cover17 (i : S100000x128.Idx) : ∃ t : Fin cfg0.N, (cfg0.win 17).flush t = true ∧ i ∈ ((cfg0.win 17).blk t).view.set := by
  have hi0 : (i 0).val < 100000 := (i 0).isLt
  have hi1 : (i 1).val < 128 := (i 1).isLt
  have hN : cfg0.N = 50 := N_0
  have hN' : grid0.N = 50 := N_0
  obtain ⟨t, ht⟩ : ∃ t : Fin cfg0.N, t.val = (i 0).val / 2000 := ⟨⟨(i 0).val / 2000, by omega⟩, rfl⟩
  refine ⟨t, flush0_17 t, ?_⟩
  rw [mem_blk17]
  obtain ⟨e0a, e0b, e1a, e1b, e2a, e2b, e3a, e3b, e14a, e14b, e15a, e15b, e16a, e16b, e17a, e17b⟩ := idx_rows t
  intro a
  match a with
  | ⟨0, _⟩ =>
    show win0_17.index t (0 : Fin 2) * 2000 ≤ (i 0).val ∧ (i 0).val < win0_17.index t (0 : Fin 2) * 2000 + 2000
    omega
  | ⟨1, _⟩ =>
    show win0_17.index t (1 : Fin 2) * 128 ≤ (i 1).val ∧ (i 1).val < win0_17.index t (1 : Fin 2) * 128 + 128
    omega

theorem final17 (c : Dev nD) : (dats m 0 c).arrAt 17 cfg0.N = G17 m c :=
  (dats m 0 c).arrAt_eq_of_cover 17 (G17 m c) (fun t _ => flushed17_eq m c t) (cover17)

end Cert.KernelIdeal.Hand

end
-- ==== Proof.KI.Entry.lean ====
/-
  What the region finds in the kernel's operand arrays, as functions of the launch memory: the host prefix run
  symbolically.  Per edge type: the reciprocal square roots of the clamped out- and in-degrees (a scatter-add of ones
  over the edge endpoints, clamped below at one), the gathered feature rows scaled by the gathered out-degree scale of
  their source, scatter-added over the destinations; the three in-degree scales side by side as the columns of one
  100000×3 array; each bias as a 1×128 row.
-/
import proofs.«153691_j36636071035262_2_alg».proof.Proof.KI.Host
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- The reciprocal square root of the clamped degree of every node, from one endpoint list of the edges. -/
def rdeg (e : IVec S600000 32) : FVec F S100000 .f32 :=
  Host.rsqrt (maximumf (Host.scatterAdd scatter_S100000_S600000x1_S600000_n_0_0_1 (broadcastInDim S100000 ![] bcast_S_S100000 (constant S_ .f32 0x00000000#32))
      (broadcastInDim S600000x1 ![0] bcast_S600000_S600000x1_0 e) (broadcastInDim S600000 ![] bcast_S_S600000 (constant S_ .f32 0x3F800000#32)))
    (broadcastInDim S100000 ![] bcast_S_S100000 (constant S_ .f32 0x3F800000#32)))

/-- The gather's start indices: a negative index counts from the end. -/
def gidx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- One edge type's aggregation as the kernel's program computes it: gather, scale the gathered rows, scatter-add. -/
def aggK (feat : FVec F S100000x128 .f32) (src dst : IVec S600000 32) : FVec F S100000x128 .f32 :=
  Host.scatterAdd scatter_S100000x128_S600000x1_S600000x128_1_0_0_1 (broadcastInDim S100000x128 ![] bcast_S_S100000x128 (constant S_ .f32 0x00000000#32))
    (broadcastInDim S600000x1 ![0] bcast_S600000_S600000x1_0 dst)
    (mulf (Host.gather gather_S100000x128_S600000x1_S600000x128_1_0_n_n_0_1_1128 feat (gidx src))
      (broadcastInDim S600000x128 ![0, 1] bcast_S600000x1_S600000x128_0_1
        (broadcastInDim S600000x1 ![0] bcast_S600000_S600000x1_0 (Host.gather gather_S100000_S600000x1_S600000_n_0_n_n_0_1_1 (rdeg (F := F) src) (gidx src)))))

/-- The three in-degree scales as the columns of one array. -/
def degK (d0 d1 d2 : IVec S600000 32) : FVec F S100000x3 .f32 :=
  concatenate S100000x3 1 [⟨S100000x1, broadcastInDim S100000x1 ![0] bcast_S100000_S100000x1_0 (rdeg (F := F) d0)⟩,
    ⟨S100000x1, broadcastInDim S100000x1 ![0] bcast_S100000_S100000x1_0 (rdeg (F := F) d1)⟩,
    ⟨S100000x1, broadcastInDim S100000x1 ![0] bcast_S100000_S100000x1_0 (rdeg (F := F) d2)⟩] concatenates_S100000x1_S100000x1_S100000x1_S100000x3_d1

variable (m : (ℓ : Loc nD τ sig) → Buf (Elt F) ℓ)

/-- A bias as a 1×128 row. -/
def biasK (b : FVec F S128 .f32) : FVec F S1x128 .f32 := shapeCast S1x128 b shapeCasts_S128_S1x128

set_option maxHeartbeats 4000000 in
theorem entry0 (c : Dev nD) : V m c (Pipeline.arrRef spec0 0) = aggK (F := F) (m ((c : Thread nD τ).loc main_arg0)) (m ((c : Thread nD τ).loc main_arg1)) (m ((c : Thread nD τ).loc main_arg2)) := by
  show V m c main_v32 = _
  dsimp only [V, hostOps0]
  after_results_simp
  <;> rfl

set_option maxHeartbeats 4000000 in
theorem entry1 (c : Dev nD) : V m c (Pipeline.arrRef spec0 1) = aggK (F := F) (m ((c : Thread nD τ).loc main_arg0)) (m ((c : Thread nD τ).loc main_arg3)) (m ((c : Thread nD τ).loc main_arg4)) := by
  show V m c main_v65 = _
  dsimp only [V, hostOps0]
  after_results_simp
  <;> rfl

set_option maxHeartbeats 4000000 in
theorem entry2 (c : Dev nD) : V m c (Pipeline.arrRef spec0 2) = aggK (F := F) (m ((c : Thread nD τ).loc main_arg0)) (m ((c : Thread nD τ).loc main_arg5)) (m ((c : Thread nD τ).loc main_arg6)) := by
  show V m c main_v98 = _
  dsimp only [V, hostOps0]
  after_results_simp
  <;> rfl

set_option maxHeartbeats 4000000 in
theorem entry3 (c : Dev nD) : V m c (Pipeline.arrRef spec0 3) = degK (F := F) (m ((c : Thread nD τ).loc main_arg2)) (m ((c : Thread nD τ).loc main_arg4)) (m ((c : Thread nD τ).loc main_arg6)) := by
  show V m c main_v102 = _
  dsimp only [V, hostOps0]
  after_results_simp
  <;> rfl

set_option maxHeartbeats 4000000 in
theorem entry5 (c : Dev nD) : V m c (Pipeline.arrRef spec0 5) = biasK (F := F) (m ((c : Thread nD τ).loc main_arg8)) := by
  show V m c main_v103 = _
  dsimp only [V, hostOps0]
  after_results_simp
  <;> rfl

set_option maxHeartbeats 4000000 in
theorem entry7 (c : Dev nD) : V m c (Pipeline.arrRef spec0 7) = biasK (F := F) (m ((c : Thread nD τ).loc main_arg10)) := by
  show V m c main_v104 = _
  dsimp only [V, hostOps0]
  after_results_simp
  <;> rfl

set_option maxHeartbeats 4000000 in
theorem entry9 (c : Dev nD) : V m c (Pipeline.arrRef spec0 9) = biasK (F := F) (m ((c : Thread nD τ).loc main_arg12)) := by
  show V m c main_v105 = _
  dsimp only [V, hostOps0]
  after_results_simp
  <;> rfl

set_option maxHeartbeats 4000000 in
theorem entry11 (c : Dev nD) : V m c (Pipeline.arrRef spec0 11) = biasK (F := F) (m ((c : Thread nD τ).loc main_arg14)) := by
  show V m c main_v106 = _
  dsimp only [V, hostOps0]
  after_results_simp
  <;> rfl

set_option maxHeartbeats 4000000 in
theorem entry13 (c : Dev nD) : V m c (Pipeline.arrRef spec0 13) = biasK (F := F) (m ((c : Thread nD τ).loc main_arg16)) := by
  show V m c main_v107 = _
  dsimp only [V, hostOps0]
  after_results_simp
  <;> rfl

theorem entry4 (c : Dev nD) : V m c (Pipeline.arrRef spec0 4) = (m ((c : Thread nD τ).loc main_arg7)) := by
  show V m c main_arg7 = _
  exact V_main_arg7 m c

theorem entry6 (c : Dev nD) : V m c (Pipeline.arrRef spec0 6) = (m ((c : Thread nD τ).loc main_arg9)) := by
  show V m c main_arg9 = _
  exact V_main_arg9 m c

theorem entry8 (c : Dev nD) : V m c (Pipeline.arrRef spec0 8) = (m ((c : Thread nD τ).loc main_arg11)) := by
  show V m c main_arg11 = _
  exact V_main_arg11 m c

theorem entry10 (c : Dev nD) : V m c (Pipeline.arrRef spec0 10) = (m ((c : Thread nD τ).loc main_arg13)) := by
  show V m c main_arg13 = _
  exact V_main_arg13 m c

theorem entry12 (c : Dev nD) : V m c (Pipeline.arrRef spec0 12) = (m ((c : Thread nD τ).loc main_arg15)) := by
  show V m c main_arg15 = _
  exact V_main_arg15 m c

end Cert.KernelIdeal.Hand

end
-- ==== Proof.Gather.lean ====
/-
  Gathering rows commutes with scaling rows.  The row gather reads, at (e, q), row clamp(I[e]) of its operand at column
  q; the vector gather reads, at e, entry clamp(I[e]) — the same clamped index, since both operands have 100000 rows
  and both slices have one row.  So a gathered feature row times the gathered scale of that row is the gathered row of
  the scaled features: feat[src[e], q] · r[src[e]] = (feat · r)[src[e], q].
-/
import proofs.«153691_j36636071035262_2_alg».proof.Proof.Gen.KernelIdeal
import Idealize.ShloMosaic.Lib.Pipeline.Value
import Idealize.ShloMosaic.Lib.ValueIdx

noncomputable section

namespace Cert.KernelIdeal.Gath

open Cert.KernelIdeal Cert.KernelIdeal.Gen
open Idealize.ShloMosaic Idealize.ShloMosaic.ValueIdx

/-- A vector broadcast to a column and then over `cN` lanes reads, at (p, q), the vector at p. -/
theorem colBcast_apply {α : Type} {n cN : Nat} (hn : n ≠ 1) (r : (⟨1, ![n]⟩ : Shape).Idx → α)
    (hD : (⟨1, ![n]⟩ : Shape).BroadcastsInDim ⟨2, ![n, 1]⟩ ![0]) (hC : (⟨2, ![n, 1]⟩ : Shape).BroadcastsInDim ⟨2, ![n, cN]⟩ ![0, 1])
    (j : (⟨2, ![n, cN]⟩ : Shape).Idx) :
    broadcastInDim ⟨2, ![n, cN]⟩ ![0, 1] hC (broadcastInDim ⟨2, ![n, 1]⟩ ![0] hD r) j = r (ix1 ⟨(j 0).val, idx2_lt0 j⟩) := by
  rw [broadcastInDim_apply ![0, 1] hC _ j (ix2 ⟨(j 0).val, idx2_lt0 j⟩ (0 : Fin 1)) (fun a => match a with
    | ⟨0, _⟩ => by show (j 0).val = if n = 1 then 0 else (j 0).val; rw [if_neg hn]
    | ⟨1, _⟩ => by show 0 = if (1 : Nat) = 1 then 0 else (j 1).val; rw [if_pos rfl])]
  exact broadcastInDim_apply ![0] hD r _ (ix1 ⟨(j 0).val, idx2_lt0 j⟩) (fun a => match a with
    | ⟨0, _⟩ => by show (j 0).val = if n = 1 then 0 else (j 0).val; rw [if_neg hn])

/-- The row the row gather reads at result row e: the start index read signed and clamped into the array. -/
theorem rowGather_row {w : Nat} (I : IVec S600000x1 w) (j : S600000x128.Idx) :
    (gather_S100000x128_S600000x1_S600000x128_1_0_n_n_0_1_1128.operandIdx j I 0).val
      = min (I (ix2 ⟨(j 0).val, idx2_lt0 j⟩ (0 : Fin 1))).toInt.toNat (100000 - 1) := by
  show gather_S100000x128_S600000x1_S600000x128_1_0_n_n_0_1_1128.start j I 0 + gather_S100000x128_S600000x1_S600000x128_1_0_n_n_0_1_1128.batchCoord j 0 + gather_S100000x128_S600000x1_S600000x128_1_0_n_n_0_1_1128.offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x128_S600000x1_S600000x128_1_0_n_n_0_1_1128.startIndexMap from List.mem_singleton.mpr rfl)]
  have hsi : gather_S100000x128_S600000x1_S600000x128_1_0_n_n_0_1_1128.siIdx j ⟨List.idxOf (0 : Fin 2) gather_S100000x128_S600000x1_S600000x128_1_0_n_n_0_1_1128.startIndexMap,
      List.idxOf_lt_length_iff.2 (List.mem_singleton.mpr rfl)⟩ = ix2 ⟨(j 0).val, idx2_lt0 j⟩ (0 : Fin 1) := by
    funext b; refine Fin.ext ?_
    match b with
    | ⟨0, _⟩ => rfl
    | ⟨1, _⟩ => rfl
  rw [hsi]
  rfl

/-- The entry the vector gather reads at e: the same clamped start index. -/
theorem vecGather_row {w : Nat} (I : IVec S600000x1 w) (k : S600000.Idx) :
    (gather_S100000_S600000x1_S600000_n_0_n_n_0_1_1.operandIdx k I 0).val
      = min (I (ix2 ⟨(k 0).val, (k 0).isLt⟩ (0 : Fin 1))).toInt.toNat (100000 - 1) := by
  show gather_S100000_S600000x1_S600000_n_0_n_n_0_1_1.start k I 0 + gather_S100000_S600000x1_S600000_n_0_n_n_0_1_1.batchCoord k 0 + gather_S100000_S600000x1_S600000_n_0_n_n_0_1_1.offCoord k 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S600000x1_S600000_n_0_n_n_0_1_1.startIndexMap from List.mem_singleton.mpr rfl)]
  have hsi : gather_S100000_S600000x1_S600000_n_0_n_n_0_1_1.siIdx k ⟨List.idxOf (0 : Fin 1) gather_S100000_S600000x1_S600000_n_0_n_n_0_1_1.startIndexMap,
      List.idxOf_lt_length_iff.2 (List.mem_singleton.mpr rfl)⟩ = ix2 ⟨(k 0).val, (k 0).isLt⟩ (0 : Fin 1) := by
    funext b; refine Fin.ext ?_
    match b with
    | ⟨0, _⟩ => rfl
    | ⟨1, _⟩ => rfl
  rw [hsi]
  rfl

/-- Gathered rows times their gathered scales are the gathered rows of the scaled array. -/
theorem gather_scale {w : Nat} (feat : FVec Ideal S100000x128 .f32) (r : FVec Ideal S100000 .f32) (I : IVec S600000x1 w)
    (hA : S600000x1.BroadcastsInDim S600000x128 ![0, 1]) (hB : S600000.BroadcastsInDim S600000x1 ![0])
    (hC : S100000x1.BroadcastsInDim S100000x128 ![0, 1]) (hD : S100000.BroadcastsInDim S100000x1 ![0]) :
    mulf (Host.gather gather_S100000x128_S600000x1_S600000x128_1_0_n_n_0_1_1128 feat I)
        (broadcastInDim S600000x128 ![0, 1] hA (broadcastInDim S600000x1 ![0] hB (Host.gather gather_S100000_S600000x1_S600000_n_0_n_n_0_1_1 r I)))
      = Host.gather gather_S100000x128_S600000x1_S600000x128_1_0_n_n_0_1_1128 (mulf feat (broadcastInDim S100000x128 ![0, 1] hC (broadcastInDim S100000x1 ![0] hD r))) I := by
  funext j
  show feat (gather_S100000x128_S600000x1_S600000x128_1_0_n_n_0_1_1128.operandIdx j I) * (broadcastInDim S600000x128 ![0, 1] hA (broadcastInDim S600000x1 ![0] hB (Host.gather gather_S100000_S600000x1_S600000_n_0_n_n_0_1_1 r I))) j
      = feat (gather_S100000x128_S600000x1_S600000x128_1_0_n_n_0_1_1128.operandIdx j I) * (broadcastInDim S100000x128 ![0, 1] hC (broadcastInDim S100000x1 ![0] hD r)) (gather_S100000x128_S600000x1_S600000x128_1_0_n_n_0_1_1128.operandIdx j I)
  refine congrArg (feat (gather_S100000x128_S600000x1_S600000x128_1_0_n_n_0_1_1128.operandIdx j I) * ·) ?_
  rw [colBcast_apply (n := 600000) (cN := 128) (by decide) _ hB hA j, colBcast_apply (n := 100000) (cN := 128) (by decide) r hD hC (gather_S100000x128_S600000x1_S600000x128_1_0_n_n_0_1_1128.operandIdx j I)]
  show r (gather_S100000_S600000x1_S600000_n_0_n_n_0_1_1.operandIdx (ix1 ⟨(j 0).val, idx2_lt0 j⟩) I) = _
  refine congrArg r (funext fun a => Fin.ext ?_)
  match a with
  | ⟨0, _⟩ =>
    show (gather_S100000_S600000x1_S600000_n_0_n_n_0_1_1.operandIdx (ix1 ⟨(j 0).val, idx2_lt0 j⟩) I 0).val = (gather_S100000x128_S600000x1_S600000x128_1_0_n_n_0_1_1128.operandIdx j I 0).val
    rw [vecGather_row, rowGather_row]

end Cert.KernelIdeal.Gath

end
-- ==== Proof.RefSide.lean ====
/-
  The reference's four results, at the extended reals, are the hidden layers and the reconstruction of its
  aggregated arrays: a host dot product at (p, q) is Σ_k X[p,k]·W[k,q], a bias broadcast to a row and over the rows
  adds b[q], a vector broadcast to a column and over the lanes scales row p by its entry p, and the clamp's floor is
  the zero word.
-/
import proofs.«153691_j36636071035262_2_alg».proof.Proof.Gen.ReferenceIdeal.Read
import proofs.«153691_j36636071035262_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Spec
open Idealize.ShloMosaic Idealize.ShloMosaic.ValueIdx
open scoped BigOperators

/-! ## The host dot product read at an index -/

theorem lhs0 (i : S100000x128.Idx) (q : dot_S100000x128_S128x128_S100000x128_1_0_0_1_n_n.contr.Idx) : (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs1 (i : S100000x128.Idx) (q : dot_S100000x128_S128x128_S100000x128_1_0_0_1_n_n.contr.Idx) : (dot_S100000x128_S128x128_S100000x128_1_0_0_1_n_n.lhsIdx i q 1).val = (q ⟨0, by decide⟩).val :=
  dot_S100000x128_S128x128_S100000x128_1_0_0_1_n_n.lhsIdx_val_of_single rfl i q
theorem rhs0 (i : S100000x128.Idx) (q : dot_S100000x128_S128x128_S100000x128_1_0_0_1_n_n.contr.Idx) : (dot_S100000x128_S128x128_S100000x128_1_0_0_1_n_n.rhsIdx i q 0).val = (q ⟨0, by decide⟩).val :=
  dot_S100000x128_S128x128_S100000x128_1_0_0_1_n_n.rhsIdx_val_of_single rfl i q
theorem rhs1 (i : S100000x128.Idx) (q : dot_S100000x128_S128x128_S100000x128_1_0_0_1_n_n.contr.Idx) : (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

theorem dot_apply (X : FVec Ideal S100000x128 .f32) (W : FVec Ideal S128x128 .f32) (p : Fin 100000) (q : Fin 128) :
    Host.dotGeneral dot_S100000x128_S128x128_S100000x128_1_0_0_1_n_n none X W (ix2 p q) = ∑ k : Fin 128, X (ix2 p k) * W (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs0 _ _
    | ⟨1, _⟩ => exact (lhs1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- The bias row broadcast over the rows reads the row at its column. -/
theorem rowBcast_apply (Y : FVec Ideal S1x128 .f32) (h : S1x128.BroadcastsInDim S100000x128 ![0, 1]) (p : Fin 100000) (q : Fin 128) :
    broadcastInDim S100000x128 ![0, 1] h Y (ix2 p q) = Y (ix2 (0 : Fin 1) q) :=
  broadcastInDim_apply ![0, 1] h Y (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A host dense layer. -/
theorem refDense (X : FVec Ideal S100000x128 .f32) (W : FVec Ideal S128x128 .f32) (Y : FVec Ideal S1x128 .f32)
    (h : S1x128.BroadcastsInDim S100000x128 ![0, 1]) :
    addf (Host.dotGeneral dot_S100000x128_S128x128_S100000x128_1_0_0_1_n_n none X W) (broadcastInDim S100000x128 ![0, 1] h Y) = dense (n := 100000) X W Y := by
  funext j
  obtain ⟨p, q, rfl⟩ : ∃ (p : Fin 100000) (q : Fin 128), j = ix2 p q := ⟨j 0, j 1, eq_ix2 j⟩
  rw [dense_ix2]
  show Host.dotGeneral dot_S100000x128_S128x128_S100000x128_1_0_0_1_n_n none X W (ix2 p q) + broadcastInDim S100000x128 ![0, 1] h Y (ix2 p q) = _
  rw [dot_apply, rowBcast_apply]

/-- A vector broadcast to a column and over the lanes, times an array, scales the array's rows. -/
theorem refScaled (i : Fin 3) (A : FVec Ideal S100000x128 .f32) (r : FVec Ideal S100000 .f32) (D : FVec Ideal (⟨2, ![100000, 3]⟩ : Shape) .f32)
    (hC : S100000x1.BroadcastsInDim S100000x128 ![0, 1]) (hD : S100000.BroadcastsInDim S100000x1 ![0])
    (hdeg : ∀ p : Fin 100000, D (ix2 p i) = r (ix1 p)) :
    mulf A (broadcastInDim S100000x128 ![0, 1] hC (broadcastInDim S100000x1 ![0] hD r)) = scaled (n := 100000) i A D := by
  funext j
  obtain ⟨p, q, rfl⟩ : ∃ (p : Fin 100000) (q : Fin 128), j = ix2 p q := ⟨j 0, j 1, eq_ix2 j⟩
  rw [scaled_ix2, hdeg]
  show A (ix2 p q) * broadcastInDim S100000x128 ![0, 1] hC (broadcastInDim S100000x1 ![0] hD r) (ix2 p q) = _
  refine congrArg (A (ix2 p q) * ·) ?_
  rw [broadcastInDim_apply ![0, 1] hC _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])]
  exact broadcastInDim_apply ![0] hD r _ (ix1 p) (fun a => match a with
    | ⟨0, _⟩ => by show p.val = if (100000 : Nat) = 1 then 0 else p.val; rw [if_neg (by decide)])

/-- The reference's clamp: the floor is the zero word broadcast. -/
theorem refRelu (X : FVec Ideal S100000x128 .f32) (h : S_.BroadcastsInDim S100000x128 ![]) :
    maximumf X (broadcastInDim S100000x128 ![] h (constant (F := Ideal) S_ .f32 0x00000000#32)) = relu (n := 100000) X := rfl

/-- The sum of three arrays, as the reference's two additions. -/
theorem add3_eq (h0 h1 h2 : FVec Ideal S100000x128 .f32) : addf (addf h0 h1) h2 = add3 (n := 100000) h0 h1 h2 := rfl

/-! ## The four results -/

theorem refHidden0 (x0 : FVec Ideal S100000x128 .f32) (x1 x2 : IVec S600000 32) (x7 : FVec Ideal S128x128 .f32) (x8 : FVec Ideal S128 .f32)
    (D : FVec Ideal (⟨2, ![100000, 3]⟩ : Shape) .f32) (hdeg : ∀ p : Fin 100000, D (ix2 p 0) = val_main_v25 (F := Ideal) x2 (ix1 p)) :
    val_main_v33 (F := Ideal) x0 x1 x2 x7 x8 = hidden (n := 100000) 0 (val_main_v24 (F := Ideal) x0 x1 x2) D x7 (val_main_v30 (F := Ideal) x8) := by
  unfold val_main_v33 val_main_v32 val_main_v29 val_main_v28 val_main_v31 val_main_v27 val_main_v26 val_main_call0_v0 val_main_call0_cst
  revert hdeg
  generalize val_main_v25 (F := Ideal) x2 = r
  generalize val_main_v24 (F := Ideal) x0 x1 x2 = A
  generalize val_main_v30 (F := Ideal) x8 = Y
  intro hdeg
  rw [refRelu, refDense, refScaled 0 A r D _ _ hdeg]
  rfl

theorem refHidden1 (x0 : FVec Ideal S100000x128 .f32) (x3 x4 : IVec S600000 32) (x9 : FVec Ideal S128x128 .f32) (x10 : FVec Ideal S128 .f32)
    (D : FVec Ideal (⟨2, ![100000, 3]⟩ : Shape) .f32) (hdeg : ∀ p : Fin 100000, D (ix2 p 1) = val_main_v59 (F := Ideal) x4 (ix1 p)) :
    val_main_v67 (F := Ideal) x0 x3 x4 x9 x10 = hidden (n := 100000) 1 (val_main_v58 (F := Ideal) x0 x3 x4) D x9 (val_main_v64 (F := Ideal) x10) := by
  unfold val_main_v67 val_main_v66 val_main_v63 val_main_v62 val_main_v65 val_main_v61 val_main_v60 val_main_call1_v0 val_main_call1_cst
  revert hdeg
  generalize val_main_v59 (F := Ideal) x4 = r
  generalize val_main_v58 (F := Ideal) x0 x3 x4 = A
  generalize val_main_v64 (F := Ideal) x10 = Y
  intro hdeg
  rw [refRelu, refDense, refScaled 1 A r D _ _ hdeg]
  rfl

theorem refHidden2 (x0 : FVec Ideal S100000x128 .f32) (x5 x6 : IVec S600000 32) (x11 : FVec Ideal S128x128 .f32) (x12 : FVec Ideal S128 .f32)
    (D : FVec Ideal (⟨2, ![100000, 3]⟩ : Shape) .f32) (hdeg : ∀ p : Fin 100000, D (ix2 p 2) = val_main_v93 (F := Ideal) x6 (ix1 p)) :
    val_main_v101 (F := Ideal) x0 x5 x6 x11 x12 = hidden (n := 100000) 2 (val_main_v92 (F := Ideal) x0 x5 x6) D x11 (val_main_v98 (F := Ideal) x12) := by
  unfold val_main_v101 val_main_v100 val_main_v97 val_main_v96 val_main_v99 val_main_v95 val_main_v94 val_main_call2_v0 val_main_call2_cst
  revert hdeg
  generalize val_main_v93 (F := Ideal) x6 = r
  generalize val_main_v92 (F := Ideal) x0 x5 x6 = A
  generalize val_main_v98 (F := Ideal) x12 = Y
  intro hdeg
  rw [refRelu, refDense, refScaled 2 A r D _ _ hdeg]
  rfl

theorem refRecon (x0 : FVec Ideal S100000x128 .f32) (x1 x2 x3 x4 x5 x6 : IVec S600000 32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) (x15 : FVec Ideal S128x128 .f32) (x16 : FVec Ideal S128 .f32) :
    val_main_v112 (F := Ideal) x0 x1 x2 x3 x4 x5 x6 x7 x8 x9 x10 x11 x12 x13 x14 x15 x16
      = recon (n := 100000) (val_main_v33 (F := Ideal) x0 x1 x2 x7 x8) (val_main_v67 (F := Ideal) x0 x3 x4 x9 x10) (val_main_v101 (F := Ideal) x0 x5 x6 x11 x12)
          x13 (val_main_v105 (F := Ideal) x14) x15 (val_main_v110 (F := Ideal) x16) := by
  unfold val_main_v112 val_main_v111 val_main_v109 val_main_v108 val_main_v107 val_main_v106 val_main_v104 val_main_v103 val_main_v102 val_main_call3_v0 val_main_call3_cst
  generalize val_main_v33 (F := Ideal) x0 x1 x2 x7 x8 = h0
  generalize val_main_v67 (F := Ideal) x0 x3 x4 x9 x10 = h1
  generalize val_main_v101 (F := Ideal) x0 x5 x6 x11 x12 = h2
  generalize val_main_v105 (F := Ideal) x14 = y1
  generalize val_main_v110 (F := Ideal) x16 = y2
  rw [add3_eq, refDense, refRelu, refDense]
  rfl

end Cert.ReferenceIdeal.RefValue

end
-- ==== Proof.Bridge.lean ====
/-
  The two programs compute the same four arrays.  Per edge type the kernel's program scales the GATHERED feature rows
  by the gathered out-degree scales where the reference gathers the rows of the SCALED features: the same array, since
  gathering rows commutes with scaling rows; everything else before the dense stage is the same operations in the same
  order.  The kernel reads the three in-degree scales as the columns of one 100000×3 array and each bias as a 1×128
  row (a reshape) where the reference broadcasts the scale vector and the bias: the same entries.  The dense stage is
  then the same hidden layers and the same reconstruction on both sides.
-/
import proofs.«153691_j36636071035262_2_alg».proof.Proof.KI.Entry
import proofs.«153691_j36636071035262_2_alg».proof.Proof.Gather
import proofs.«153691_j36636071035262_2_alg».proof.Proof.RefSide
import Idealize.ShloMosaic.Lib.ValueLayout

set_option maxRecDepth 16384

noncomputable section

namespace Cert.Bridge

open Cert.Spec Cert.KernelIdeal.Hand Cert.ReferenceIdeal.Read Cert.ReferenceIdeal.RefValue
open Idealize.ShloMosaic Idealize.ShloMosaic.ValueIdx

abbrev ArrN128 : Type := FVec Ideal (⟨2, ![100000, 128]⟩ : Shape) .f32
abbrev Edges : Type := IVec (⟨1, ![600000]⟩ : Shape) 32
abbrev Mat : Type := FVec Ideal (⟨2, ![128, 128]⟩ : Shape) .f32
abbrev Bias : Type := FVec Ideal (⟨1, ![128]⟩ : Shape) .f32

/-! ## The aggregated arrays agree -/

set_option maxHeartbeats 1000000 in
theorem agg_eq0 (a0 : ArrN128) (s d : Edges) : aggK (F := Ideal) a0 s d = val_main_v24 (F := Ideal) a0 s d := by
  unfold aggK
  rw [Cert.KernelIdeal.Gath.gather_scale _ _ _ _ _ Cert.ReferenceIdeal.Gen.bcast_S100000x1_S100000x128_0_1 Cert.KernelIdeal.Gen.bcast_S100000_S100000x1_0]
  rfl

set_option maxHeartbeats 1000000 in
theorem agg_eq1 (a0 : ArrN128) (s d : Edges) : aggK (F := Ideal) a0 s d = val_main_v58 (F := Ideal) a0 s d := by
  unfold aggK
  rw [Cert.KernelIdeal.Gath.gather_scale _ _ _ _ _ Cert.ReferenceIdeal.Gen.bcast_S100000x1_S100000x128_0_1 Cert.KernelIdeal.Gen.bcast_S100000_S100000x1_0]
  rfl

set_option maxHeartbeats 1000000 in
theorem agg_eq2 (a0 : ArrN128) (s d : Edges) : aggK (F := Ideal) a0 s d = val_main_v92 (F := Ideal) a0 s d := by
  unfold aggK
  rw [Cert.KernelIdeal.Gath.gather_scale _ _ _ _ _ Cert.ReferenceIdeal.Gen.bcast_S100000x1_S100000x128_0_1 Cert.KernelIdeal.Gen.bcast_S100000_S100000x1_0]
  rfl

/-! ## The in-degree scales agree, column by column -/

theorem rdeg_eq0 (d : Edges) : rdeg (F := Ideal) d = val_main_v25 (F := Ideal) d := rfl
theorem rdeg_eq1 (d : Edges) : rdeg (F := Ideal) d = val_main_v59 (F := Ideal) d := rfl
theorem rdeg_eq2 (d : Edges) : rdeg (F := Ideal) d = val_main_v93 (F := Ideal) d := rfl

/-- Three 100000×1 columns side by side, read at (p, i): column i at p. -/
theorem cols3_apply {α : Type} (u0 u1 u2 : (⟨2, ![100000, 1]⟩ : Shape).Idx → α)
    (h : Shape.Concatenates [(⟨2, ![100000, 1]⟩ : Shape), ⟨2, ![100000, 1]⟩, ⟨2, ![100000, 1]⟩] ⟨2, ![100000, 3]⟩ 1) (p : Fin 100000) :
    concatenate (⟨2, ![100000, 3]⟩ : Shape) 1 [⟨(⟨2, ![100000, 1]⟩ : Shape), u0⟩, ⟨(⟨2, ![100000, 1]⟩ : Shape), u1⟩, ⟨(⟨2, ![100000, 1]⟩ : Shape), u2⟩] h (ix2 p (0 : Fin 3)) = u0 (ix2 p (0 : Fin 1))
    ∧ concatenate (⟨2, ![100000, 3]⟩ : Shape) 1 [⟨(⟨2, ![100000, 1]⟩ : Shape), u0⟩, ⟨(⟨2, ![100000, 1]⟩ : Shape), u1⟩, ⟨(⟨2, ![100000, 1]⟩ : Shape), u2⟩] h (ix2 p (1 : Fin 3)) = u1 (ix2 p (0 : Fin 1))
    ∧ concatenate (⟨2, ![100000, 3]⟩ : Shape) 1 [⟨(⟨2, ![100000, 1]⟩ : Shape), u0⟩, ⟨(⟨2, ![100000, 1]⟩ : Shape), u1⟩, ⟨(⟨2, ![100000, 1]⟩ : Shape), u2⟩] h (ix2 p (2 : Fin 3)) = u2 (ix2 p (0 : Fin 1)) := by
  have hi : ∀ (j3 : Fin 3) (b : Fin (⟨2, ![100000, 1]⟩ : Shape).rank), b.cast (rfl : (⟨2, ![100000, 1]⟩ : Shape).rank = (⟨2, ![100000, 3]⟩ : Shape).rank) ≠ (1 : Fin 2) →
      ((ix2 p (0 : Fin 1) : (⟨2, ![100000, 1]⟩ : Shape).Idx) b).val = ((ix2 p j3 : (⟨2, ![100000, 3]⟩ : Shape).Idx) (b.cast rfl)).val := fun j3 b hb => by
    match b with
    | ⟨0, _⟩ => rfl
    | ⟨1, _⟩ => exact absurd (Fin.ext rfl) hb
  refine ⟨?_, ?_, ?_⟩
  · exact concatenate_apply_piece (t := (⟨2, ![100000, 3]⟩ : Shape)) (1 : Fin 2) [⟨(⟨2, ![100000, 1]⟩ : Shape), u0⟩, ⟨(⟨2, ![100000, 1]⟩ : Shape), u1⟩, ⟨(⟨2, ![100000, 1]⟩ : Shape), u2⟩] h (ix2 p (0 : Fin 3))
      0 (show 0 < 3 by decide) (⟨2, ![100000, 1]⟩ : Shape) u0 rfl rfl 0 rfl (ix2 p (0 : Fin 1)) (hi 0) rfl
  · exact concatenate_apply_piece (t := (⟨2, ![100000, 3]⟩ : Shape)) (1 : Fin 2) [⟨(⟨2, ![100000, 1]⟩ : Shape), u0⟩, ⟨(⟨2, ![100000, 1]⟩ : Shape), u1⟩, ⟨(⟨2, ![100000, 1]⟩ : Shape), u2⟩] h (ix2 p (1 : Fin 3))
      1 (show 1 < 3 by decide) (⟨2, ![100000, 1]⟩ : Shape) u1 rfl rfl 1 rfl (ix2 p (0 : Fin 1)) (hi 1) rfl
  · exact concatenate_apply_piece (t := (⟨2, ![100000, 3]⟩ : Shape)) (1 : Fin 2) [⟨(⟨2, ![100000, 1]⟩ : Shape), u0⟩, ⟨(⟨2, ![100000, 1]⟩ : Shape), u1⟩, ⟨(⟨2, ![100000, 1]⟩ : Shape), u2⟩] h (ix2 p (2 : Fin 3))
      2 (show 2 < 3 by decide) (⟨2, ![100000, 1]⟩ : Shape) u2 rfl rfl 2 rfl (ix2 p (0 : Fin 1)) (hi 2) rfl

/-- A vector broadcast to a column reads, at (p, 0), the vector at p. -/
theorem col_apply {α : Type} (r : (⟨1, ![100000]⟩ : Shape).Idx → α) (h : (⟨1, ![100000]⟩ : Shape).BroadcastsInDim ⟨2, ![100000, 1]⟩ ![0]) (p : Fin 100000) :
    broadcastInDim (⟨2, ![100000, 1]⟩ : Shape) ![0] h r (ix2 p (0 : Fin 1)) = r (ix1 p) :=
  broadcastInDim_apply ![0] h r (ix2 p (0 : Fin 1)) (ix1 p) (fun a => match a with
    | ⟨0, _⟩ => by show p.val = if (100000 : Nat) = 1 then 0 else p.val; rw [if_neg (by decide)])

theorem deg_col0 (d0 d1 d2 : Edges) (p : Fin 100000) :
    degK (F := Ideal) d0 d1 d2 (ix2 p (0 : Fin 3)) = rdeg (F := Ideal) d0 (ix1 p) := by
  unfold degK
  exact ((cols3_apply _ _ _ _ p).1).trans (col_apply _ _ p)

theorem deg_col1 (d0 d1 d2 : Edges) (p : Fin 100000) :
    degK (F := Ideal) d0 d1 d2 (ix2 p (1 : Fin 3)) = rdeg (F := Ideal) d1 (ix1 p) := by
  unfold degK
  exact ((cols3_apply _ _ _ _ p).2.1).trans (col_apply _ _ p)

theorem deg_col2 (d0 d1 d2 : Edges) (p : Fin 100000) :
    degK (F := Ideal) d0 d1 d2 (ix2 p (2 : Fin 3)) = rdeg (F := Ideal) d2 (ix1 p) := by
  unfold degK
  exact ((cols3_apply _ _ _ _ p).2.2).trans (col_apply _ _ p)

/-! ## The bias rows agree -/

theorem biasRow_eq (b : Bias) (h : (⟨1, ![128]⟩ : Shape).ShapeCasts ⟨2, ![1, 128]⟩) (h' : (⟨1, ![128]⟩ : Shape).BroadcastsInDim ⟨2, ![1, 128]⟩ ![1]) :
    shapeCast (⟨2, ![1, 128]⟩ : Shape) b h = broadcastInDim (⟨2, ![1, 128]⟩ : Shape) ![1] h' b := by
  funext j
  obtain ⟨u, i, rfl⟩ : ∃ (u : Fin 1) (i : Fin 128), j = ix2 u i := ⟨j 0, j 1, eq_ix2 j⟩
  rw [shapeCast_a_1a_apply]
  exact (broadcastInDim_apply ![1] h' b (ix2 u i) (ix1 i) (fun a => match a with
    | ⟨0, _⟩ => by show i.val = if (128 : Nat) = 1 then 0 else i.val; rw [if_neg (by decide)])).symm

theorem bias_eq30 (b : Bias) : biasK (F := Ideal) b = val_main_v30 (F := Ideal) b := biasRow_eq b _ _
theorem bias_eq64 (b : Bias) : biasK (F := Ideal) b = val_main_v64 (F := Ideal) b := biasRow_eq b _ _
theorem bias_eq98 (b : Bias) : biasK (F := Ideal) b = val_main_v98 (F := Ideal) b := biasRow_eq b _ _
theorem bias_eq105 (b : Bias) : biasK (F := Ideal) b = val_main_v105 (F := Ideal) b := biasRow_eq b _ _
theorem bias_eq110 (b : Bias) : biasK (F := Ideal) b = val_main_v110 (F := Ideal) b := biasRow_eq b _ _

/-! ## The four results agree -/

theorem hid0 (a0 : ArrN128) (s0 d0 s1 d1 s2 d2 : Edges) (w0 : Mat) (b0 : Bias) :
    hidden (n := 100000) 0 (aggK (F := Ideal) a0 s0 d0) (degK (F := Ideal) d0 d1 d2) w0 (biasK (F := Ideal) b0)
      = val_main_v33 (F := Ideal) a0 s0 d0 w0 b0 := by
  rw [refHidden0 a0 s0 d0 w0 b0 (degK (F := Ideal) d0 d1 d2) (fun p => (deg_col0 d0 d1 d2 p).trans (congrFun (rdeg_eq0 d0) (ix1 p))),
    agg_eq0, bias_eq30]

theorem hid1 (a0 : ArrN128) (s0 d0 s1 d1 s2 d2 : Edges) (w1 : Mat) (b1 : Bias) :
    hidden (n := 100000) 1 (aggK (F := Ideal) a0 s1 d1) (degK (F := Ideal) d0 d1 d2) w1 (biasK (F := Ideal) b1)
      = val_main_v67 (F := Ideal) a0 s1 d1 w1 b1 := by
  rw [refHidden1 a0 s1 d1 w1 b1 (degK (F := Ideal) d0 d1 d2) (fun p => (deg_col1 d0 d1 d2 p).trans (congrFun (rdeg_eq1 d1) (ix1 p))),
    agg_eq1, bias_eq64]

theorem hid2 (a0 : ArrN128) (s0 d0 s1 d1 s2 d2 : Edges) (w2 : Mat) (b2 : Bias) :
    hidden (n := 100000) 2 (aggK (F := Ideal) a0 s2 d2) (degK (F := Ideal) d0 d1 d2) w2 (biasK (F := Ideal) b2)
      = val_main_v101 (F := Ideal) a0 s2 d2 w2 b2 := by
  rw [refHidden2 a0 s2 d2 w2 b2 (degK (F := Ideal) d0 d1 d2) (fun p => (deg_col2 d0 d1 d2 p).trans (congrFun (rdeg_eq2 d2) (ix1 p))),
    agg_eq2, bias_eq98]

theorem rec (a0 : ArrN128) (s0 d0 s1 d1 s2 d2 : Edges) (w0 : Mat) (b0 : Bias) (w1 : Mat) (b1 : Bias) (w2 : Mat) (b2 : Bias)
    (wr1 : Mat) (br1 : Bias) (wr2 : Mat) (br2 : Bias) :
    recon (n := 100000)
        (hidden (n := 100000) 0 (aggK (F := Ideal) a0 s0 d0) (degK (F := Ideal) d0 d1 d2) w0 (biasK (F := Ideal) b0))
        (hidden (n := 100000) 1 (aggK (F := Ideal) a0 s1 d1) (degK (F := Ideal) d0 d1 d2) w1 (biasK (F := Ideal) b1))
        (hidden (n := 100000) 2 (aggK (F := Ideal) a0 s2 d2) (degK (F := Ideal) d0 d1 d2) w2 (biasK (F := Ideal) b2))
        wr1 (biasK (F := Ideal) br1) wr2 (biasK (F := Ideal) br2)
      = val_main_v112 (F := Ideal) a0 s0 d0 s1 d1 s2 d2 w0 b0 w1 b1 w2 b2 wr1 br1 wr2 br2 := by
  rw [refRecon, hid0 a0 s0 d0 s1 d1 s2 d2 w0 b0, hid1 a0 s0 d0 s1 d1 s2 d2 w1 b1, hid2 a0 s0 d0 s1 d1 s2 d2 w2 b2, bias_eq105, bias_eq110]

/-- The reconstruction of the reference's own hidden stages is its last stage. -/
theorem rec2 (a0 : ArrN128) (s0 d0 s1 d1 s2 d2 : Edges) (w0 : Mat) (b0 : Bias) (w1 : Mat) (b1 : Bias) (w2 : Mat) (b2 : Bias)
    (wr1 : Mat) (br1 : Bias) (wr2 : Mat) (br2 : Bias) :
    recon (n := 100000) (val_main_v33 (F := Ideal) a0 s0 d0 w0 b0) (val_main_v67 (F := Ideal) a0 s1 d1 w1 b1) (val_main_v101 (F := Ideal) a0 s2 d2 w2 b2)
        wr1 (biasK (F := Ideal) br1) wr2 (biasK (F := Ideal) br2)
      = val_main_v112 (F := Ideal) a0 s0 d0 s1 d1 s2 d2 w0 b0 w1 b1 w2 b2 wr1 br1 wr2 br2 := by
  rw [refRecon, bias_eq105, bias_eq110]

end Cert.Bridge

end
-- ==== Proof.KI.Run.lean ====
/-
  The idealized kernel's run with its four result arrays named: each is the reference's stage of the launch
  contents of the arguments (the bridge), and the arguments end unchanged.
-/
import proofs.«153691_j36636071035262_2_alg».proof.Proof.KI.Value
import proofs.«153691_j36636071035262_2_alg».proof.Proof.KI.Entry
import proofs.«153691_j36636071035262_2_alg».proof.Proof.Bridge

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The hidden arrays the kernel leaves are the reference's hidden stages of the same arguments. -/
theorem G15_eq (c : Dev nD) : G15 m c = Cert.ReferenceIdeal.Read.val_main_v33 (F := Ideal) (m ((c : Thread nD τ).loc main_arg0)) (m ((c : Thread nD τ).loc main_arg1)) (m ((c : Thread nD τ).loc main_arg2)) (m ((c : Thread nD τ).loc main_arg7)) (m ((c : Thread nD τ).loc main_arg8)) := by
  unfold G15
  rw [entry0 m c, entry3 m c, entry4 m c, entry5 m c]
  exact Cert.Bridge.hid0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
theorem G16_eq (c : Dev nD) : G16 m c = Cert.ReferenceIdeal.Read.val_main_v67 (F := Ideal) (m ((c : Thread nD τ).loc main_arg0)) (m ((c : Thread nD τ).loc main_arg3)) (m ((c : Thread nD τ).loc main_arg4)) (m ((c : Thread nD τ).loc main_arg9)) (m ((c : Thread nD τ).loc main_arg10)) := by
  unfold G16
  rw [entry1 m c, entry3 m c, entry6 m c, entry7 m c]
  exact Cert.Bridge.hid1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10))
theorem G17_eq (c : Dev nD) : G17 m c = Cert.ReferenceIdeal.Read.val_main_v101 (F := Ideal) (m ((c : Thread nD τ).loc main_arg0)) (m ((c : Thread nD τ).loc main_arg5)) (m ((c : Thread nD τ).loc main_arg6)) (m ((c : Thread nD τ).loc main_arg11)) (m ((c : Thread nD τ).loc main_arg12)) := by
  unfold G17
  rw [entry2 m c, entry3 m c, entry8 m c, entry9 m c]
  exact Cert.Bridge.hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12))
/-- The reconstruction the kernel leaves is the reference's last stage. -/
theorem G14_eq (c : Dev nD) : G14 m c = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  unfold G14
  rw [G15_eq m c, G16_eq m c, G17_eq m c, entry10 m c, entry11 m c, entry12 m c, entry13 m c]
  exact Cert.Bridge.rec2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The run, read: the four results and the unchanged arguments. -/
theorem run_value : θ_run defs (onTc (τ := τ) (main (F := Ideal))) ⟨m, fun _ => 0, ρ⟩ (fun r => ∀ c : Dev nD,
      r.2.mem ((c.tc : Thread nD τ).loc main_v108_0) = G14 m c
      ∧ r.2.mem ((c.tc : Thread nD τ).loc main_v108_1) = G15 m c
      ∧ r.2.mem ((c.tc : Thread nD τ).loc main_v108_2) = G16 m c
      ∧ r.2.mem ((c.tc : Thread nD τ).loc main_v108_3) = G17 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨((h c).1 14).trans (final14 m c), ((h c).1 15).trans (final15 m c),
      ((h c).1 16).trans (final16 m c), ((h c).1 17).trans (final17 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 4).trans (((dats m 0 c).arrAt_in 4 rfl _).trans ((A_eq m c 4).trans (V_main_arg7 m c))),
      ((h c).2 main_arg8 (Pipeline.mem_restRefs_of main_arg8 (by decide) (by decide))).trans (V_main_arg8 m c),
      ((h c).1 6).trans (((dats m 0 c).arrAt_in 6 rfl _).trans ((A_eq m c 6).trans (V_main_arg9 m c))),
      ((h c).2 main_arg10 (Pipeline.mem_restRefs_of main_arg10 (by decide) (by decide))).trans (V_main_arg10 m c),
      ((h c).1 8).trans (((dats m 0 c).arrAt_in 8 rfl _).trans ((A_eq m c 8).trans (V_main_arg11 m c))),
      ((h c).2 main_arg12 (Pipeline.mem_restRefs_of main_arg12 (by decide) (by decide))).trans (V_main_arg12 m c),
      ((h c).1 10).trans (((dats m 0 c).arrAt_in 10 rfl _).trans ((A_eq m c 10).trans (V_main_arg13 m c))),
      ((h c).2 main_arg14 (Pipeline.mem_restRefs_of main_arg14 (by decide) (by decide))).trans (V_main_arg14 m c),
      ((h c).1 12).trans (((dats m 0 c).arrAt_in 12 rfl _).trans ((A_eq m c 12).trans (V_main_arg15 m c))),
      ((h c).2 main_arg16 (Pipeline.mem_restRefs_of main_arg16 (by decide) (by decide))).trans (V_main_arg16 m c)⟩) (run_main m ρ)

end Cert.KernelIdeal.Hand

end
-- ==== Proof.lean ====
/-
  The certificate: a three-edge-type graph convolution with a two-layer reconstruction head, the dense stage as one
  fused kernel over fifty row tiles, against its plain reference, over the extended reals.

  Both programs first aggregate, per edge type, the feature rows over the edges (gather the source rows, scale by the
  reciprocal square root of the source's out-degree, scatter-add into the destination rows) on the host.  The kernel's
  program scales the gathered rows, the reference gathers the scaled rows: one array, since gathering rows commutes
  with scaling rows.  The dense stage — scale row p by the reciprocal square root of its in-degree, apply each edge
  type's linear layer and clamp at zero, add the three, apply two more linear layers — is row-local, so the kernel's
  fifty blocks of 2000 rows are the blocks of the whole-array result; its bf16 roundings are the identity on extended
  reals and its matrix products into a zero accumulator are the host's dot products.  No law that needs finiteness is
  used: the precondition is never opened.

  The frames: the kernel's program is 138 host operations and one region; every weakly fair execution terminates
  without a fault, the region stages and writes back only its own windows, and no host operation writes an argument.
  The reference is a host program; its frame is its run with the results dropped.  The ideal pass rewrote nothing.
-/
import proofs.«153691_j36636071035262_2_alg».proof.Defs
import proofs.«153691_j36636071035262_2_alg».proof.Proof.Gen.Kernel
import proofs.«153691_j36636071035262_2_alg».proof.Proof.Gen.KernelIdeal
import proofs.«153691_j36636071035262_2_alg».proof.Proof.Gen.ReferenceIdeal
import proofs.«153691_j36636071035262_2_alg».proof.Proof.Gen.Pre_finite_inputs
import proofs.«153691_j36636071035262_2_alg».proof.Proof.K.Frame
import proofs.«153691_j36636071035262_2_alg».proof.Proof.KI.Run
import proofs.«153691_j36636071035262_2_alg».proof.Proof.Gen.ReferenceIdeal.Run
import proofs.«153691_j36636071035262_2_alg».proof.Proof.Gen.ReferenceIdeal.Read
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

theorem preserves : Cert.preserves_Kernel_KernelIdeal := trivial

set_option maxHeartbeats 2000000 in
/-- From memories agreeing on the arguments both programs end with the same four arrays: the reference's stages
    of the arguments. -/
theorem algebraic : Cert.algebraic_KernelIdeal_ReferenceIdeal := by
  intro m ρ m' ρ' _ hagree
  refine ⟨fun c => Cert.KernelIdeal.Hand.G14 m c, fun c => Cert.KernelIdeal.Hand.G15 m c, fun c => Cert.KernelIdeal.Hand.G16 m c, fun c => Cert.KernelIdeal.Hand.G17 m c,
    Cert.KernelIdeal.Hand.run_value m ρ, ?_⟩
  refine (θ_run Cert.ReferenceIdeal.defs _ _).mono (fun r h c => ?_) (Cert.ReferenceIdeal.Value.run (F := Ideal) m' ρ')
  obtain ⟨g0, g1, g2, g3, g4, g5, g6, g7, g8, g9, g10, g11, g12, g13, g14, g15, g16⟩ := hagree c
  obtain ⟨h0, h1, h2, h3, hargs⟩ := h c
  refine ⟨?_, ?_, ?_, ?_, hargs⟩
  · rw [h0, Cert.ReferenceIdeal.Read.val_main_v112_eq, g0, g1, g2, g3, g4, g5, g6, g7, g8, g9, g10, g11, g12, g13, g14, g15, g16]
    exact (Cert.KernelIdeal.Hand.G14_eq m c).symm
  · rw [h1, Cert.ReferenceIdeal.Read.val_main_v33_eq, g0, g1, g2, g7, g8]
    exact (Cert.KernelIdeal.Hand.G15_eq m c).symm
  · rw [h2, Cert.ReferenceIdeal.Read.val_main_v67_eq, g0, g3, g4, g9, g10]
    exact (Cert.KernelIdeal.Hand.G16_eq m c).symm
  · rw [h3, Cert.ReferenceIdeal.Read.val_main_v101_eq, g0, g5, g6, g11, g12]
    exact (Cert.KernelIdeal.Hand.G17_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
